-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S32x1 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg8
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S2x32 .f32) (main_arg5 : FVec F S32 .f32) (main_arg6 : FVec F S32x32 .f32) (main_arg7 : FVec F S32 .f32) (main_arg8 : FVec F S32x1 .f32) (main_arg9 : FVec F S1 .f32) (main_v13 : IVec S_ 1) (main_v16 : IVec S4194304 1) : IVec S_ 1 :=
  let main_c_5 : IVec S_ 1 := constantI S_ 1 1#1
  let main_v17 : IVec S_ 1 := (fun x v => Host.reduce IntOp.andi x v reducesTo_S4194304_S_d0 h_S_) main_v16 main_c_5
  let main_v18 : IVec S_ 1 := andi main_v13 main_v17
  let main_v19 : FVec F S2x32 .f32 := Host.absf main_arg4
  let main_cst_6 : FVec F S_ .f32 := constant S_ .f32 0x7F800000#32
  let main_v20 : FVec F S2x32 .f32 := broadcastInDim S2x32 ![] bcast_S_S2x32 main_cst_6
  let main_v21 : IVec S2x32 1 := cmpf .olt main_v19 main_v20
  let main_c_7 : IVec S_ 1 := constantI S_ 1 1#1
  let main_v22 : IVec S_ 1 := (fun x v => Host.reduce IntOp.andi x v reducesTo_S2x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S4194304 .f32) (main_arg1 : FVec F S4194304 .f32) (main_arg2 : FVec F S4194304 .f32) (main_arg3 : FVec F S4194304 .f32) (main_arg4 : FVec F S2x32 .f32) (main_arg5 : FVec F S32 .f32) (main_arg6 : FVec F S32x32 .f32) (main_arg7 : FVec F S32 .f32) (main_arg8 : FVec F S32x1 .f32) (main_arg9 : FVec F S1 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S4194304 .f32 := Host.absf main_arg2
  let main_cst_2 : FVec F S_ .f32 := constant S_ .f32 0x7F800000#32
  let main_v10 : FVec F S4194304 .f32 := broadcastInDim S4194304 ![] bcast_S_S4194304 main_cst_2
  let main_v11 : IVec S4194304 1 := cmpf .olt main_v9 main_v10
  let main_c_3 : IVec S_ 1 := constantI S_ 1 1#1
  let main_v12 : IVec S_ 1 := (fun x v => Host.reduce IntOp.andi x v reducesTo_S4194304_S_d0 h_S_) main_v11 main_c_3
  let main_v13 : IVec S_ 1 := andi main_v8 main_v12
  let main_v14 : FVec F S4194304 .f32 := Host.absf main_arg3
  let main_cst_4 : FVec F S_ .f32 := constant S_ .f32 0x7F800000#32
  let main_v15 : FVec F S4194304 .f32 := broadcastInDim S4194304 ![] bcast_S_S4194304 main_cst_4
  let main_v16 : IVec S4194304 1 := cmpf .olt main_v14 main_v15
  fn_part1 (F := F) main_arg4 main_arg5 main_arg6 main_arg7 main_arg8 main_arg9 main_v13 main_v16
-- ==== Kernel.lean ====
abbrev S4194304 : Shape := ⟨1, ![4194304]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S16384 : Shape := ⟨1, ![16384]⟩
abbrev S1x32 : Shape := ⟨2, ![1, 32]⟩
abbrev S1x16384 : Shape := ⟨2, ![1, 16384]⟩
abbrev S32x16384 : Shape := ⟨2, ![32, 16384]⟩
abbrev S4194304x1 : Shape := ⟨2, ![4194304, 1]⟩
abbrev S4194304x4 : Shape := ⟨2, ![4194304, 4]⟩

abbrev nBuf : Space → Nat
  | .hbm => 21
  | .vmem => 18
  | .smem => 0
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S4194304, .f32⟩
  | .hbm, ⟨3, _⟩ => ⟨S4194304, .f32⟩
  | .hbm, ⟨4, _⟩ => ⟨S2x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S32x32, .f32⟩
  | .hbm, ⟨11, _⟩ => ⟨S32, .f32⟩
  | .hbm, ⟨12, _⟩ => ⟨S32x32, .bf16⟩
  | .hbm, ⟨13, _⟩ => ⟨S32x32, .bf16⟩
  | .hbm, ⟨14, _⟩ => ⟨S4194304, .f32⟩
  | .hbm, ⟨15, _⟩ => ⟨S4194304, .f32⟩
  | .hbm, ⟨16, _⟩ => ⟨S4194304x1, .f32⟩
  | .hbm, ⟨17, _⟩ => ⟨S4194304x1, .f32⟩
  | .hbm, ⟨18, _⟩ => ⟨S4194304x1, .f32⟩
  | .hbm, ⟨19, _⟩ => ⟨S4194304x1, .f32⟩
  | .hbm, ⟨20, _⟩ => ⟨S4194304x4, .f32⟩
  | .local _ .vmem, ⟨0, _⟩ => ⟨S16384, .f32⟩
  | .local _ .vmem, ⟨1, _⟩ => ⟨S16384, .f32⟩
  | .local _ .vmem, ⟨2, _⟩ => ⟨S16384, .f32⟩
  | .local _ .vmem, ⟨3, _⟩ => ⟨S16384, .f32⟩
  | .local _ .vmem, ⟨4, _⟩ => ⟨S16384, .f32⟩
  | .local _ .vmem, ⟨5, _⟩ => ⟨S16384, .f32⟩
  | .local _ .vmem, ⟨6, _⟩ => ⟨S16384, .f32⟩
  | .local _ .vmem, ⟨7, _⟩ => ⟨S16384, .f32⟩
  | .local _ .vmem, ⟨8, _⟩ => ⟨S2x32, .f32⟩
  | .local _ .vmem, ⟨9, _⟩ => ⟨S32, .f32⟩
  | .local _ .vmem, ⟨10, _⟩ => ⟨S32x32, .bf16⟩
  | .local _ .vmem, ⟨11, _⟩ => ⟨S32x32, .bf16⟩
  | .local _ .vmem, ⟨12, _⟩ => ⟨S32, .f32⟩
  | .local _ .vmem, ⟨13, _⟩ => ⟨S32, .f32⟩
  | .local _ .vmem, ⟨14, _⟩ => ⟨S16384, .f32⟩
  | .local _ .vmem, ⟨15, _⟩ => ⟨S16384, .f32⟩
  | .local _ .vmem, ⟨16, _⟩ => ⟨S16384, .f32⟩
  | .local _ .vmem, ⟨17, _⟩ => ⟨S16384, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  ![arg0.toNat]

def cc0_transform_11 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S32x32_S32x32_1_0 : S32x32.Transposes [1, 0] S32x32
  shapeCasts_S32x1_S32 : S32x1.ShapeCasts S32
  bitsLt_bf16_f32 : FTy.bits .bf16 < FTy.bits .f32
  inb_S16384_S16384_0 : ∀ a, (![0] : Fin 1 → Nat) a + S16384.size a ≤ S16384.size a
  h_S16384 : 0 < S16384.numel
  inb_S2x32_S1x32_0_0 : ∀ a, (![0, 0] : Fin 2 → Nat) a + S1x32.size a ≤ S2x32.size a
  h_S1x32 : 0 < S1x32.numel
  shapeCasts_S1x32_S32 : S1x32.ShapeCasts S32
  inb_S2x32_S1x32_1_0 : ∀ a, (![1, 0] : Fin 2 → Nat) a + S1x32.size a ≤ S2x32.size a
  inb_S32_S32_0 : ∀ a, (![0] : Fin 1 → Nat) a + S32.size a ≤ S32.size a
  h_S32 : 0 < S32.numel
  shapeCasts_S32_S32x1 : S32.ShapeCasts S32x1
  shapeCasts_S16384_S1x16384 : S16384.ShapeCasts S1x16384
  broadcasts_S32x1_S32x16384 : S32x1.Broadcasts S32x16384
  broadcasts_S1x16384_S32x16384 : S1x16384.Broadcasts S32x16384
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32_S32 : S32.ShapeCasts S32
  reduces_S32x16384_S16384 : S32x16384.Reduces [0] S16384
  bcast_S4194304_S4194304x1_0 : S4194304.BroadcastsInDim S4194304x1 (![0] : Fin 1 → Fin S4194304x1.rank)
  concatenates_S4194304x1_S4194304x1_S4194304x1_S4194304x1_S4194304x4_d1 : Shape.Concatenates [S4194304x1, S4194304x1, S4194304x1, S4194304x1] S4194304x4 1
  dot_S32x32_S32x16384_S32x16384_1_0_0_1_n_n_wf : DotDims.WF S32x32 S32x16384 S32x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S4194304.size a
  hwx0_0 : ∀ i : grid0.Coords, EltTy.bits .f32 = 32 ∨ (Rect.block (s := S4194304) S16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S4194304.size a
  hwx0_1 : ∀ i : grid0.Coords, EltTy.bits .f32 = 32 ∨ (Rect.block (s := S4194304) S16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S4194304.size a
  hwx0_2 : ∀ i : grid0.Coords, EltTy.bits .f32 = 32 ∨ (Rect.block (s := S4194304) S16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384.size a ≤ S4194304.size a
  hwx0_3 : ∀ i : grid0.Coords, EltTy.bits .f32 = 32 ∨ (Rect.block (s := S4194304) S16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x32.size a ≤ S2x32.size a
  hwx0_4 : ∀ i : grid0.Coords, EltTy.bits .f32 = 32 ∨ (Rect.block (s := S2x32) S2x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .bf16 = 32 ∨ (Rect.block (s := S32x32) S32x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16384.size a ≤ S4194304.size a
  hwx0_10 : ∀ i : grid0.Coords, EltTy.bits .f32 = 32 ∨ (Rect.block (s := S4194304) S16384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16384.size a ≤ S4194304.size a
  hwx0_11 : ∀ i : grid0.Coords, EltTy.bits .f32 = 32 ∨ (Rect.block (s := S4194304) S16384.size (cc0_transform_11 i) (hinb0_11 i)).WholeWords (EltTy.packing .f32)

variable [Facts₀]

def dot_S32x32_S32x16384_S32x16384_1_0_0_1_n_n : DotDims S32x32 S32x16384 S32x16384 where
  lhsContracting := [1]
  rhsContracting := [0]
  lhsNonContracting := [0]
  rhsNonContracting := [1]
  lhsBatch := []
  rhsBatch := []
  wf := dot_S32x32_S32x16384_S32x16384_1_0_0_1_n_n_wf

abbrev win0_0 : Pipeline.Window sig grid0 :=
  Pipeline.Window.ofSpec (Memref.whole main_arg0) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S16384.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S16384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4194304 : Shape := ⟨1, ![4194304]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S4194304x1 : Shape := ⟨2, ![4194304, 1]⟩
abbrev S4194304x2 : Shape := ⟨2, ![4194304, 2]⟩
abbrev S4194304x32 : Shape := ⟨2, ![4194304, 32]⟩
abbrev S1x32 : Shape := ⟨2, ![1, 32]⟩
abbrev S_ : Shape := ⟨0, ![]⟩
abbrev S1x1 : Shape := ⟨2, ![1, 1]⟩
abbrev S4194304x4 : Shape := ⟨2, ![4194304, 4]⟩

abbrev nBuf : Space → Nat
  | .hbm => 69
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S4194304, .f32⟩
  | .hbm, ⟨3, _⟩ => ⟨S4194304, .f32⟩
  | .hbm, ⟨4, _⟩ => ⟨S2x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S4194304x1, .f32⟩
  | .hbm, ⟨11, _⟩ => ⟨S4194304x1, .f32⟩
  | .hbm, ⟨12, _⟩ => ⟨S4194304x2, .f32⟩
  | .hbm, ⟨13, _⟩ => ⟨S4194304x32, .f32⟩
  | .hbm, ⟨14, _⟩ => ⟨S1x32, .f32⟩
  | .hbm, ⟨15, _⟩ => ⟨S4194304x32, .f32⟩
  | .hbm, ⟨16, _⟩ => ⟨S4194304x32, .f32⟩
  | .hbm, ⟨17, _⟩ => ⟨S4194304x32, .f32⟩
  | .hbm, ⟨18, _⟩ => ⟨S4194304x32, .f32⟩
  | .hbm, ⟨19, _⟩ => ⟨S_, .f32⟩
  | .hbm, ⟨20, _⟩ => ⟨S4194304x32, .f32⟩
  | .hbm, ⟨21, _⟩ => ⟨S4194304x32, .f32⟩
  | .hbm, ⟨22, _⟩ => ⟨S_, .f32⟩
  | .hbm, ⟨23, _⟩ => ⟨S4194304x32, .f32⟩
  | .hbm, ⟨24, _⟩ => ⟨S4194304x32, .f32⟩
  | .hbm, ⟨25, _⟩ => ⟨S_, .f32⟩
  | .hbm, ⟨26, _⟩ => ⟨S4194304x32, .f32⟩
  | .hbm, ⟨27, _⟩ => ⟨S4194304x32, .f32⟩
  | .hbm, ⟨28, _⟩ => ⟨S4194304x32, .f32⟩
  | .hbm, ⟨29, _⟩ => ⟨S4194304x32, .f32⟩
  | .hbm, ⟨30, _⟩ => ⟨S1x32, .f32⟩
  | .hbm, ⟨31, _⟩ => ⟨S4194304x32, .f32⟩
  | .hbm, ⟨32, _⟩ => ⟨S4194304x32, .f32⟩
  | .hbm, ⟨33, _⟩ => ⟨S4194304x32, .f32⟩
  | .hbm, ⟨34, _⟩ => ⟨S4194304x32, .f32⟩
  | .hbm, ⟨35, _⟩ => ⟨S_, .f32⟩
  | .hbm, ⟨36, _⟩ => ⟨S4194304x32, .f32⟩
  | .hbm, ⟨37, _⟩ => ⟨S4194304x32, .f32⟩
  | .hbm, ⟨38, _⟩ => ⟨S_, .f32⟩
  | .hbm, ⟨39, _⟩ => ⟨S4194304x32, .f32⟩
  | .hbm, ⟨40, _⟩ => ⟨S4194304x32, .f32⟩
  | .hbm, ⟨41, _⟩ => ⟨S_, .f32⟩
  | .hbm, ⟨42, _⟩ => ⟨S4194304x32, .f32⟩
  | .hbm, ⟨43, _⟩ => ⟨S4194304x32, .f32⟩
  | .hbm, ⟨44, _⟩ => ⟨S4194304x32, .f32⟩
  | .hbm, ⟨45, _⟩ => ⟨S4194304x1, .f32⟩
  | .hbm, ⟨46, _⟩ => ⟨S1x1, .f32⟩
  | .hbm, ⟨47, _⟩ => ⟨S4194304x1, .f32⟩
  | .hbm, ⟨48, _⟩ => ⟨S4194304x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4194304x1, .f32⟩
  | .hbm, ⟨53, _⟩ => ⟨S4194304x32, .f32⟩
  | .hbm, ⟨54, _⟩ => ⟨S4194304x32, .f32⟩
  | .hbm, ⟨55, _⟩ => ⟨S4194304x32, .f32⟩
  | .hbm, ⟨56, _⟩ => ⟨S4194304x32, .f32⟩
  | .hbm, ⟨57, _⟩ => ⟨S4194304x2, .f32⟩
  | .hbm, ⟨58, _⟩ => ⟨S4194304x1, .f32⟩
  | .hbm, ⟨59, _⟩ => ⟨S4194304, .f32⟩
  | .hbm, ⟨60, _⟩ => ⟨S4194304, .f32⟩
  | .hbm, ⟨61, _⟩ => ⟨S4194304x1, .f32⟩
  | .hbm, ⟨62, _⟩ => ⟨S4194304, .f32⟩
  | .hbm, ⟨63, _⟩ => ⟨S4194304, .f32⟩
  | .hbm, ⟨64, _⟩ => ⟨S4194304x1, .f32⟩
  | .hbm, ⟨65, _⟩ => ⟨S4194304x1, .f32⟩
  | .hbm, ⟨66, _⟩ => ⟨S4194304x1, .f32⟩
  | .hbm, ⟨67, _⟩ => ⟨S4194304x1, .f32⟩
  | .hbm, ⟨68, _⟩ => ⟨S4194304x4, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S_S4194304x32 : S_.BroadcastsInDim S4194304x32 (![] : Fin 0 → Fin S4194304x32.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S_d0_1 : S4194304x1.ReducesTo [0, 1] S_
  h_S_ : 0 < S_.numel
  bcast_S_S4194304x1 : S_.BroadcastsInDim S4194304x1 (![] : Fin 0 → Fin S4194304x1.rank)
  slices_S4194304x2_S4194304x1_0_0 : S4194304x2.Slices ![0, 0] S4194304x1
  shapeCasts_S4194304x1_S4194304 : S4194304x1.ShapeCasts S4194304
  slices_S4194304x2_S4194304x1_0_1 : S4194304x2.Slices ![0, 1] S4194304x1
  concatenates_S4194304x1_S4194304x1_S4194304x1_S4194304x1_S4194304x4_d1 : Shape.Concatenates [S4194304x1, S4194304x1, S4194304x1, S4194304x1] S4194304x4 1
  dot_S4194304x2_S2x32_S4194304x32_1_0_0_1_n_n_wf : DotDims.WF S4194304x2 S2x32 S4194304x32 [1] [0] [0] [1] [] []
  dot_S4194304x32_S32x32_S4194304x32_1_0_0_1_n_n_wf : DotDims.WF S4194304x32 S32x32 S4194304x32 [1] [0] [0] [1] [] []
  dot_S4194304x32_S32x1_S4194304x1_1_0_0_1_n_n_wf : DotDims.WF S4194304x32 S32x1 S4194304x1 [1] [0] [0] [1] [] []
  dot_S4194304x1_S32x1_S4194304x32_1_1_0_0_n_n_wf : DotDims.WF S4194304x1 S32x1 S4194304x32 [1] [1] [0] [0] [] []
  dot_S4194304x32_S32x32_S4194304x32_1_1_0_0_n_n_wf : DotDims.WF S4194304x32 S32x32 S4194304x32 [1] [1] [0] [0] [] []
  dot_S4194304x32_S2x32_S4194304x2_1_1_0_0_n_n_wf : DotDims.WF S4194304x32 S2x32 S4194304x2 [1] [1] [0] [0] [] []

variable [Facts₀]

def dot_S4194304x2_S2x32_S4194304x32_1_0_0_1_n_n : DotDims S4194304x2 S2x32 S4194304x32 where
  lhsContracting := [1]
  rhsContracting := [0]
  lhsNonContracting := [0]
  rhsNonContracting := [1]
  lhsBatch := []
  rhsBatch := []
  wf := dot_S4194304x2_S2x32_S4194304x32_1_0_0_1_n_n_wf
def dot_S4194304x32_S32x32_S4194304x32_1_0_0_1_n_n : DotDims S4194304x32 S32x32 S4194304x32 where
  lhsContracting := [1]
  rhsContracting := [0]
  lhsNonContracting := [0]
  rhsNonContracting := [1]
  lhsBatch := []
  rhsBatch := []
  wf := dot_S4194304x32_S32x32_S4194304x32_1_0_0_1_n_n_wf
def dot_S4194304x32_S32x1_S4194304x1_1_0_0_1_n_n : DotDims S4194304x32 S32x1 S4194304x1 where
  lhsContracting := [1]
  rhsContracting := [0]
  lhsNonContracting := [0]
  rhsNonContracting := [1]
  lhsBatch := []
  rhsBatch := []
  wf := dot_S4194304x32_S32x1_S4194304x1_1_0_0_1_n_n_wf
def dot_S4194304x1_S32x1_S4194304x32_1_1_0_0_n_n : DotDims S4194304x1 S32x1 S4194304x32 where
  lhsContracting := [1]
  rhsContracting := [1]
  lhsNonContracting := [0]
  rhsNonContracting := [0]
  lhsBatch := []
  rhsBatch := []
  wf := dot_S4194304x1_S32x1_S4194304x32_1_1_0_0_n_n_wf
def dot_S4194304x32_S32x32_S4194304x32_1_1_0_0_n_n : DotDims S4194304x32 S32x32 S4194304x32 where
  lhsContracting := [1]
  rhsContracting := [1]
  lhsNonContracting := [0]
  rhsNonContracting := [0]
  lhsBatch := []
  rhsBatch := []
  wf := dot_S4194304x32_S32x32_S4194304x32_1_1_0_0_n_n_wf
def dot_S4194304x32_S2x32_S4194304x2_1_1_0_0_n_n : DotDims S4194304x32 S2x32 S4194304x2 where
  lhsContracting := [1]
  rhsContracting := [1]
  lhsNonContracting := [0]
  rhsNonContracting := [0]
  lhsBatch := []
  rhsBatch := []
  wf := dot_S4194304x32_S2x32_S4194304x2_1_1_0_0_n_n_wf

class Facts : Prop extends Facts₀ where

variable [Facts]
-- ==== Proof.KernelAround.lean ====
/-
  The frame of the program around its one grid of 256 points. Each point reads one block of 16384 rows of the four
  row vectors and the whole of the six small parameter arrays, and writes one block of each of the two updated row
  vectors; nothing else is touched. So every argument array ends as it began: a staged argument because an input window's
  array is never written, the three arguments no window stages because neither the host lines before the grid nor those
  after it write them. What a point leaves in each output block is named here as a function of the point's input blocks
  (`left_10`, `left_11`: the one covering store of each output window over the body's arithmetic), and the run
  (`run_main`) states every window's array after the last point in those terms.
-/
import proofs.«157394_j84009560310416_1_alg».proof.Proof.Gen.Kernel.Launch
import proofs.«157394_j84009560310416_1_alg».proof.Proof.Gen.Kernel.Skeleton
import proofs.«157394_j84009560310416_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- What each buffer holds when the grid starts: the launch contents after the four host lines before it (the transpose of
    the 32×32 weight, its two roundings, the column of the last weight as a vector). -/
abbrev entry0 (c : Dev nD) : Valuation τ sig (Elt F) := StableHlo.after (List.flatten [hostOps0]) (fun b => m (c, b))
/-- The same at one buffer. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the grid, the grid, the host lines after it. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the grid (four columns made of four row vectors, and their concatenation) touch only arrays of the
    grid's windows and buffers the grid does not use, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of a window: each writes its own result (a column, or the four-column result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-! ## The arguments at the grid's start and at the program's end -/

theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem exit_main_arg6 (pd : (p : Fin _) → (c : Dev nD) → Dat τ (Elt F) Unit ℕ (UR sig nD τ) ℕ (cfgs p) c) (c : Dev nD) :
    Pipeline.afterTail₀ cfgs pd 0 (entry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg6 (by exact (by decide : ∀ w, Pipeline.arrRef spec0 w ≠ main_arg6))]
  exact entry_main_arg6 m c
theorem exit_main_arg8 (pd : (p : Fin _) → (c : Dev nD) → Dat τ (Elt F) Unit ℕ (UR sig nD τ) ℕ (cfgs p) c) (c : Dev nD) :
    Pipeline.afterTail₀ cfgs pd 0 (entry0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg8 (by exact (by decide : ∀ w, Pipeline.arrRef spec0 w ≠ main_arg8))]
  exact entry_main_arg8 m c
theorem exit_main_arg9 (pd : (p : Fin _) → (c : Dev nD) → Dat τ (Elt F) Unit ℕ (UR sig nD τ) ℕ (cfgs p) c) (c : Dev nD) :
    Pipeline.afterTail₀ cfgs pd 0 (entry0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg9 (by exact (by decide : ∀ w, Pipeline.arrRef spec0 w ≠ main_arg9))]
  exact entry_main_arg9 m c

/-! ## A window's block at a point -/

/-- Window `w`'s block at point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

theorem found_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found_7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem found_8_of {c : Dev nD} (dat : Dat τ (Elt F) Unit ℕ (UR sig nD τ) ℕ cfg0 c) (hA : dat.A 8 = entry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem found_9_of {c : Dev nD} (dat : Dat τ (Elt F) Unit ℕ (UR sig nD τ) ℕ cfg0 c) (hA : dat.A 9 = entry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged, given the run -/

theorem frame_of (pd : (p : Fin 1) → (c : Dev nD) → Dat τ (Elt F) Unit ℕ (UR sig nD τ) ℕ (cfgs p) c)
    (hA : ∀ c w, (pd 0 c).A w = entry m c (Pipeline.arrRef spec0 w))
    (h : θ_run defs (onTc (τ := τ) (main (F := F))) (s₀ m ρ) (Pipeline.FramePost cfgs pd 0 (Pipeline.afterTail₀ cfgs pd 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((pd 0 c).arrAt_in 0 rfl _).trans ((hA c 0).trans (entry_main_arg0 m c))),
      ((h c).1 1).trans (((pd 0 c).arrAt_in 1 rfl _).trans ((hA c 1).trans (entry_main_arg1 m c))),
      ((h c).1 2).trans (((pd 0 c).arrAt_in 2 rfl _).trans ((hA c 2).trans (entry_main_arg2 m c))),
      ((h c).1 3).trans (((pd 0 c).arrAt_in 3 rfl _).trans ((hA c 3).trans (entry_main_arg3 m c))),
      ((h c).1 4).trans (((pd 0 c).arrAt_in 4 rfl _).trans ((hA c 4).trans (entry_main_arg4 m c))),
      ((h c).1 5).trans (((pd 0 c).arrAt_in 5 rfl _).trans ((hA c 5).trans (entry_main_arg5 m c))),
      ((h c).2 main_arg6 (Pipeline.mem_restRefs_of main_arg6 (by decide) (by decide))).trans (exit_main_arg6 m pd c),
      ((h c).1 8).trans (((pd 0 c).arrAt_in 8 rfl _).trans ((hA c 8).trans (entry_main_arg7 m c))),
      ((h c).2 main_arg8 (Pipeline.mem_restRefs_of main_arg8 (by decide) (by decide))).trans (exit_main_arg8 m pd c),
      ((h c).2 main_arg9 (Pipeline.mem_restRefs_of main_arg9 (by decide) (by decide))).trans (exit_main_arg9 m pd c)⟩) h

/-! ## The body's rectangles -/

/-- a whole block of 16384 rows -/
abbrev rRow : Rect S16384 := Rect.unit (s := S16384) ![0] S16384.size inb_S16384_S16384_0
/-- the two rows of the first weight -/
abbrev rW1a : Rect S2x32 := Rect.unit (s := S2x32) ![0, 0] S1x32.size inb_S2x32_S1x32_0_0
abbrev rW1b : Rect S2x32 := Rect.unit (s := S2x32) ![1, 0] S1x32.size inb_S2x32_S1x32_1_0
/-- a whole 32-vector, a whole 32×32 matrix -/
abbrev rVec : Rect S32 := Rect.unit (s := S32) ![0] S32.size inb_S32_S32_0
abbrev rMat : Rect S32x32 := Rect.unit (s := S32x32) ![0, 0] S32x32.size inb_S32x32_S32x32_0_0

/-! ## What a point leaves in each output block -/

/-- The first updated row vector's block: its one store, of the first row vector's block plus the gradient's first
    component (the body's arithmetic over the loaded blocks). -/
def left_10 (x0 : Vec F S16384 .f32) (x1 : Vec F S16384 .f32) (x2 : Vec F S16384 .f32) (x3 : Vec F S16384 .f32) (x4 : Vec F S2x32 .f32) (x5 : Vec F S32 .f32) (x6 : Vec F S32x32 .bf16) (x7 : Vec F S32x32 .bf16) (x8 : Vec F S32 .f32) (x9 : Vec F S32 .f32) : Vec F S16384 .f32 :=
  View.canon [⟨rRow, k0_pay2 (k0_pay4 (View.ld x4 rW1a)) (k0_pay6 (View.ld x2 rRow) (View.ld x3 rRow) (View.ld x4 rW1a) (View.ld x4 rW1b) (View.ld x5 rVec)) (k0_pay7 (View.ld x2 rRow) (View.ld x3 rRow) (View.ld x4 rW1a) (View.ld x4 rW1b) (View.ld x5 rVec) (View.ld x8 rVec) (View.ld x7 rMat) (View.ld x9 rVec) (View.ld x6 rMat)) (View.ld x0 rRow)⟩]

/-- The second updated row vector's block, likewise with the second component. -/
def left_11 (x0 : Vec F S16384 .f32) (x1 : Vec F S16384 .f32) (x2 : Vec F S16384 .f32) (x3 : Vec F S16384 .f32) (x4 : Vec F S2x32 .f32) (x5 : Vec F S32 .f32) (x6 : Vec F S32x32 .bf16) (x7 : Vec F S32x32 .bf16) (x8 : Vec F S32 .f32) (x9 : Vec F S32 .f32) : Vec F S16384 .f32 :=
  View.canon [⟨rRow, k0_pay3 (k0_pay5 (View.ld x4 rW1b)) (k0_pay6 (View.ld x2 rRow) (View.ld x3 rRow) (View.ld x4 rW1a) (View.ld x4 rW1b) (View.ld x5 rVec)) (k0_pay7 (View.ld x2 rRow) (View.ld x3 rRow) (View.ld x4 rW1a) (View.ld x4 rW1b) (View.ld x5 rVec) (View.ld x8 rVec) (View.ld x7 rMat) (View.ld x9 rVec) (View.ld x6 rMat)) (View.ld x1 rRow)⟩]

theorem cover_10 (p0 : Vec F S16384 .f32) (y : S16384.Idx) :
    ∃ pc ∈ ([⟨rRow, p0⟩] : List (View.Piece (Elt F) S16384 .f32)), y ∈ pc.1.set :=
  View.cover_of_tiled [⟨rRow, p0⟩] S16384.size (by rfl) y
theorem cover_11 (p0 : Vec F S16384 .f32) (y : S16384.Idx) :
    ∃ pc ∈ ([⟨rRow, p0⟩] : List (View.Piece (Elt F) S16384 .f32)), y ∈ pc.1.set :=
  View.cover_of_tiled [⟨rRow, p0⟩] S16384.size (by rfl) y

/-! ## The body's triple -/

set_option maxHeartbeats 4000000 in
/-- The body, on whole staging buffers holding the input blocks `x0 … x9` and anything in the two output buffers, runs to
    the end leaving the inputs as they were and the outputs at `left_10`, `left_11` of the inputs. -/
theorem sound_kernel (c : Dev nD) (E : Set ℕ) (i : grid0.Coords) (arg1 : Memref sig .tc .vmem S16384 .f32) (harg1 : arg1.IsWhole) (arg2 : Memref sig .tc .vmem S16384 .f32) (harg2 : arg2.IsWhole) (arg3 : Memref sig .tc .vmem S16384 .f32) (harg3 : arg3.IsWhole) (arg4 : Memref sig .tc .vmem S16384 .f32) (harg4 : arg4.IsWhole) (arg5 : Memref sig .tc .vmem S2x32 .f32) (harg5 : arg5.IsWhole) (arg6 : Memref sig .tc .vmem S32 .f32) (harg6 : arg6.IsWhole) (arg7 : Memref sig .tc .vmem S32x32 .bf16) (harg7 : arg7.IsWhole) (arg8 : Memref sig .tc .vmem S32x32 .bf16) (harg8 : arg8.IsWhole) (arg9 : Memref sig .tc .vmem S32 .f32) (harg9 : arg9.IsWhole) (arg10 : Memref sig .tc .vmem S32 .f32) (harg10 : arg10.IsWhole) (arg11 : Memref sig .tc .vmem S16384 .f32) (harg11 : arg11.IsWhole) (arg12 : Memref sig .tc .vmem S16384 .f32) (harg12 : arg12.IsWhole)
    (x0 : Vec F S16384 .f32) (x1 : Vec F S16384 .f32) (x2 : Vec F S16384 .f32) (x3 : Vec F S16384 .f32) (x4 : Vec F S2x32 .f32) (x5 : Vec F S32 .f32) (x6 : Vec F S32x32 .bf16) (x7 : Vec F S32x32 .bf16) (x8 : Vec F S32 .f32) (x9 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (left_10 x0 x1 x2 x3 x4 x5 x6 x7 x8 x9) ∗ owns (c : Thread nD τ) arg12 fullShare (left_11 x0 x1 x2 x3 x4 x5 x6 x7 x8 x9)) -∗ K ⟨⟩))
      ⊢ wp frame (wpE (defs₀ (F := F)) Variants.none c none) E (cc0__mlp_grad_kernel i arg1 harg1 arg2 harg2 arg3 harg3 arg4 harg4 arg5 harg5 arg6 harg6 arg7 harg7 arg8 harg8 arg9 harg9 arg10 harg10 arg11 harg11 arg12 harg12) K := by
  simp only [cc0__mlp_grad_kernel_eq_skeleton]; unfold cc0__mlp_grad_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_10 _)
  iexists _; isplitr
  swap; · iexact H11
  ipureintro
  try dsimp only
  exact View.read_writes_eq_canon _ _ _ (cover_11 _)

/-! ## The proof data -/

/-- Per core: the arrays as the grid finds them; after the body at point `t` each input buffer at its block and each output
    buffer at `left_w` of the input blocks; nothing else kept between points. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => left_10 (blockAt m c 0 t) (blockAt m c 1 t) (blockAt m c 2 t) (blockAt m c 3 t) (blockAt m c 4 t) (blockAt m c 5 t) (blockAt m c 6 t) (blockAt m c 7 t) (blockAt m c 8 t) (blockAt m c 9 t)
    | ⟨11, _⟩ => left_11 (blockAt m c 0 t) (blockAt m c 1 t) (blockAt m c 2 t) (blockAt m c 3 t) (blockAt m c 4 t) (blockAt m c 5 t) (blockAt m c 6 t) (blockAt m c 7 t) (blockAt m c 8 t) (blockAt m c 9 t)
  Φ _ := Pipeline.ΦA spec0 c
  q _ := fullShare
  owed _ := 0

theorem A_eq (c : Dev nD) (w : Fin cfg0.W) : (pdata m 0 c).A w = entry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t = blockAt m c 4 t := by dsimp only [pdata]
theorem after_5 (c : Dev nD) (t : Fin cfg0.N) : (pdata m 0 c).after 5 t = blockAt m c 5 t := by dsimp only [pdata]
theorem after_6 (c : Dev nD) (t : Fin cfg0.N) : (pdata m 0 c).after 6 t = blockAt m c 6 t := by dsimp only [pdata]
theorem after_7 (c : Dev nD) (t : Fin cfg0.N) : (pdata m 0 c).after 7 t = blockAt m c 7 t := by dsimp only [pdata]
theorem after_8 (c : Dev nD) (t : Fin cfg0.N) : (pdata m 0 c).after 8 t = blockAt m c 8 t := by dsimp only [pdata]
theorem after_9 (c : Dev nD) (t : Fin cfg0.N) : (pdata m 0 c).after 9 t = blockAt m c 9 t := by dsimp only [pdata]
theorem after_10 (c : Dev nD) (t : Fin cfg0.N) : (pdata m 0 c).after 10 t = left_10 (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [pdata]
theorem after_11 (c : Dev nD) (t : Fin cfg0.N) : (pdata m 0 c).after 11 t = left_11 (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [pdata]

theorem found_0 (c : Dev nD) (t : Fin cfg0.N) (d) : (pdata m 0 c).before 0 t d = blockAt m c 0 t :=
  found_0_of m (pdata m 0 c) (A_eq m c 0) (after_0 m c) t d
theorem found_1 (c : Dev nD) (t : Fin cfg0.N) (d) : (pdata m 0 c).before 1 t d = blockAt m c 1 t :=
  found_1_of m (pdata m 0 c) (A_eq m c 1) (after_1 m c) t d
theorem found_2 (c : Dev nD) (t : Fin cfg0.N) (d) : (pdata m 0 c).before 2 t d = blockAt m c 2 t :=
  found_2_of m (pdata m 0 c) (A_eq m c 2) (after_2 m c) t d
theorem found_3 (c : Dev nD) (t : Fin cfg0.N) (d) : (pdata m 0 c).before 3 t d = blockAt m c 3 t :=
  found_3_of m (pdata m 0 c) (A_eq m c 3) (after_3 m c) t d
theorem found_4 (c : Dev nD) (t : Fin cfg0.N) (d) : (pdata m 0 c).before 4 t d = blockAt m c 4 t :=
  found_4_of m (pdata m 0 c) (A_eq m c 4) (after_4 m c) t d
theorem found_5 (c : Dev nD) (t : Fin cfg0.N) (d) : (pdata m 0 c).before 5 t d = blockAt m c 5 t :=
  found_5_of m (pdata m 0 c) (A_eq m c 5) (after_5 m c) t d
theorem found_6 (c : Dev nD) (t : Fin cfg0.N) (d) : (pdata m 0 c).before 6 t d = blockAt m c 6 t :=
  found_6_of m (pdata m 0 c) (A_eq m c 6) (after_6 m c) t d
theorem found_7 (c : Dev nD) (t : Fin cfg0.N) (d) : (pdata m 0 c).before 7 t d = blockAt m c 7 t :=
  found_7_of m (pdata m 0 c) (A_eq m c 7) (after_7 m c) t d
theorem found_8 (c : Dev nD) (t : Fin cfg0.N) (d) : (pdata m 0 c).before 8 t d = blockAt m c 8 t :=
  found_8_of m (pdata m 0 c) (A_eq m c 8) (after_8 m c) t d
theorem found_9 (c : Dev nD) (t : Fin cfg0.N) (d) : (pdata m 0 c).before 9 t d = blockAt m c 9 t :=
  found_9_of m (pdata m 0 c) (A_eq m c 9) (after_9 m c) t d

/-! ## The body obligation at a point -/

def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d))
    ∗ (∃ d, owns (c : Thread nD τ) (st0_8 t) fullShare ((pdata m 0 c).before 8 t d))
    ∗ (∃ d, owns (c : Thread nD τ) (st0_9 t) fullShare ((pdata m 0 c).before 9 t d))
    ∗ (∃ d, owns (c : Thread nD τ) (st0_10 t) fullShare ((pdata m 0 c).before 10 t d))
    ∗ (∃ d, owns (c : Thread nD τ) (st0_11 t) fullShare ((pdata m 0 c).before 11 t d)))

def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t)
    ∗ owns (c : Thread nD τ) (st0_8 t) fullShare ((pdata m 0 c).after 8 t)
    ∗ owns (c : Thread nD τ) (st0_9 t) fullShare ((pdata m 0 c).after 9 t)
    ∗ owns (c : Thread nD τ) (st0_10 t) fullShare ((pdata m 0 c).after 10 t)
    ∗ owns (c : Thread nD τ) (st0_11 t) fullShare ((pdata m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6, found_7, found_8, found_9]
  rw [show (pdata m 0 c).Φ t.succ = (pdata m 0 c).Φ t.castSucc from rfl,
    show (pdata m 0 c).owesAt () t.succ = (pdata m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (pdata (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; every window's array ends at what the blocks
    written back make it, and every other buffer as the lines after the grid leave it. -/
theorem run_main : θ_run defs (onTc (τ := τ) (main (F := F))) (s₀ m ρ) (Pipeline.FramePost cfgs (pdata m) 0 (Pipeline.afterTail₀ cfgs (pdata m) 0 (entry0 m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry0 m) (opss := [hostOps1]) (hsub := tail_sub) (hfresh := tail_fresh) (hkeep := tail_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (pdata m) (A_eq m) (run_main m ρ)

end Cert.Kernel.Around

end
-- ==== Proof.KernelIdealAround.lean ====
/-
  The frame of the program around its one grid of 256 points. Each point reads one block of 16384 rows of the four
  row vectors and the whole of the six small parameter arrays, and writes one block of each of the two updated row
  vectors; nothing else is touched. So every argument array ends as it began: a staged argument because an input window's
  array is never written, the three arguments no window stages because neither the host lines before the grid nor those
  after it write them. What a point leaves in each output block is named here as a function of the point's input blocks
  (`left_10`, `left_11`: the one covering store of each output window over the body's arithmetic), and the run
  (`run_main`) states every window's array after the last point in those terms.
-/
import proofs.«157394_j84009560310416_1_alg».proof.Proof.Gen.KernelIdeal.Launch
import proofs.«157394_j84009560310416_1_alg».proof.Proof.Gen.KernelIdeal.Skeleton
import proofs.«157394_j84009560310416_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- What each buffer holds when the grid starts: the launch contents after the four host lines before it (the transpose of
    the 32×32 weight, its two roundings, the column of the last weight as a vector). -/
abbrev entry0 (c : Dev nD) : Valuation τ sig (Elt F) := StableHlo.after (List.flatten [hostOps0]) (fun b => m (c, b))
/-- The same at one buffer. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the grid, the grid, the host lines after it. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the grid (four columns made of four row vectors, and their concatenation) touch only arrays of the
    grid's windows and buffers the grid does not use, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of a window: each writes its own result (a column, or the four-column result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-! ## The arguments at the grid's start and at the program's end -/

theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem exit_main_arg6 (pd : (p : Fin _) → (c : Dev nD) → Dat τ (Elt F) Unit ℕ (UR sig nD τ) ℕ (cfgs p) c) (c : Dev nD) :
    Pipeline.afterTail₀ cfgs pd 0 (entry0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg6 (by exact (by decide : ∀ w, Pipeline.arrRef spec0 w ≠ main_arg6))]
  exact entry_main_arg6 m c
theorem exit_main_arg8 (pd : (p : Fin _) → (c : Dev nD) → Dat τ (Elt F) Unit ℕ (UR sig nD τ) ℕ (cfgs p) c) (c : Dev nD) :
    Pipeline.afterTail₀ cfgs pd 0 (entry0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg8 (by exact (by decide : ∀ w, Pipeline.arrRef spec0 w ≠ main_arg8))]
  exact entry_main_arg8 m c
theorem exit_main_arg9 (pd : (p : Fin _) → (c : Dev nD) → Dat τ (Elt F) Unit ℕ (UR sig nD τ) ℕ (cfgs p) c) (c : Dev nD) :
    Pipeline.afterTail₀ cfgs pd 0 (entry0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg9 (by exact (by decide : ∀ w, Pipeline.arrRef spec0 w ≠ main_arg9))]
  exact entry_main_arg9 m c

/-! ## A window's block at a point -/

/-- Window `w`'s block at point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

theorem found_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem found_7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem found_8_of {c : Dev nD} (dat : Dat τ (Elt F) Unit ℕ (UR sig nD τ) ℕ cfg0 c) (hA : dat.A 8 = entry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem found_9_of {c : Dev nD} (dat : Dat τ (Elt F) Unit ℕ (UR sig nD τ) ℕ cfg0 c) (hA : dat.A 9 = entry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged, given the run -/

theorem frame_of (pd : (p : Fin 1) → (c : Dev nD) → Dat τ (Elt F) Unit ℕ (UR sig nD τ) ℕ (cfgs p) c)
    (hA : ∀ c w, (pd 0 c).A w = entry m c (Pipeline.arrRef spec0 w))
    (h : θ_run defs (onTc (τ := τ) (main (F := F))) (s₀ m ρ) (Pipeline.FramePost cfgs pd 0 (Pipeline.afterTail₀ cfgs pd 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((pd 0 c).arrAt_in 0 rfl _).trans ((hA c 0).trans (entry_main_arg0 m c))),
      ((h c).1 1).trans (((pd 0 c).arrAt_in 1 rfl _).trans ((hA c 1).trans (entry_main_arg1 m c))),
      ((h c).1 2).trans (((pd 0 c).arrAt_in 2 rfl _).trans ((hA c 2).trans (entry_main_arg2 m c))),
      ((h c).1 3).trans (((pd 0 c).arrAt_in 3 rfl _).trans ((hA c 3).trans (entry_main_arg3 m c))),
      ((h c).1 4).trans (((pd 0 c).arrAt_in 4 rfl _).trans ((hA c 4).trans (entry_main_arg4 m c))),
      ((h c).1 5).trans (((pd 0 c).arrAt_in 5 rfl _).trans ((hA c 5).trans (entry_main_arg5 m c))),
      ((h c).2 main_arg6 (Pipeline.mem_restRefs_of main_arg6 (by decide) (by decide))).trans (exit_main_arg6 m pd c),
      ((h c).1 8).trans (((pd 0 c).arrAt_in 8 rfl _).trans ((hA c 8).trans (entry_main_arg7 m c))),
      ((h c).2 main_arg8 (Pipeline.mem_restRefs_of main_arg8 (by decide) (by decide))).trans (exit_main_arg8 m pd c),
      ((h c).2 main_arg9 (Pipeline.mem_restRefs_of main_arg9 (by decide) (by decide))).trans (exit_main_arg9 m pd c)⟩) h

/-! ## The body's rectangles -/

/-- a whole block of 16384 rows -/
abbrev rRow : Rect S16384 := Rect.unit (s := S16384) ![0] S16384.size inb_S16384_S16384_0
/-- the two rows of the first weight -/
abbrev rW1a : Rect S2x32 := Rect.unit (s := S2x32) ![0, 0] S1x32.size inb_S2x32_S1x32_0_0
abbrev rW1b : Rect S2x32 := Rect.unit (s := S2x32) ![1, 0] S1x32.size inb_S2x32_S1x32_1_0
/-- a whole 32-vector, a whole 32×32 matrix -/
abbrev rVec : Rect S32 := Rect.unit (s := S32) ![0] S32.size inb_S32_S32_0
abbrev rMat : Rect S32x32 := Rect.unit (s := S32x32) ![0, 0] S32x32.size inb_S32x32_S32x32_0_0

/-! ## What a point leaves in each output block -/

/-- The first updated row vector's block: its one store, of the first row vector's block plus the gradient's first
    component (the body's arithmetic over the loaded blocks). -/
def left_10 (x0 : Vec F S16384 .f32) (x1 : Vec F S16384 .f32) (x2 : Vec F S16384 .f32) (x3 : Vec F S16384 .f32) (x4 : Vec F S2x32 .f32) (x5 : Vec F S32 .f32) (x6 : Vec F S32x32 .bf16) (x7 : Vec F S32x32 .bf16) (x8 : Vec F S32 .f32) (x9 : Vec F S32 .f32) : Vec F S16384 .f32 :=
  View.canon [⟨rRow, k0_pay2 (k0_pay4 (View.ld x4 rW1a)) (k0_pay6 (View.ld x2 rRow) (View.ld x3 rRow) (View.ld x4 rW1a) (View.ld x4 rW1b) (View.ld x5 rVec)) (k0_pay7 (View.ld x2 rRow) (View.ld x3 rRow) (View.ld x4 rW1a) (View.ld x4 rW1b) (View.ld x5 rVec) (View.ld x8 rVec) (View.ld x7 rMat) (View.ld x9 rVec) (View.ld x6 rMat)) (View.ld x0 rRow)⟩]

/-- The second updated row vector's block, likewise with the second component. -/
def left_11 (x0 : Vec F S16384 .f32) (x1 : Vec F S16384 .f32) (x2 : Vec F S16384 .f32) (x3 : Vec F S16384 .f32) (x4 : Vec F S2x32 .f32) (x5 : Vec F S32 .f32) (x6 : Vec F S32x32 .bf16) (x7 : Vec F S32x32 .bf16) (x8 : Vec F S32 .f32) (x9 : Vec F S32 .f32) : Vec F S16384 .f32 :=
  View.canon [⟨rRow, k0_pay3 (k0_pay5 (View.ld x4 rW1b)) (k0_pay6 (View.ld x2 rRow) (View.ld x3 rRow) (View.ld x4 rW1a) (View.ld x4 rW1b) (View.ld x5 rVec)) (k0_pay7 (View.ld x2 rRow) (View.ld x3 rRow) (View.ld x4 rW1a) (View.ld x4 rW1b) (View.ld x5 rVec) (View.ld x8 rVec) (View.ld x7 rMat) (View.ld x9 rVec) (View.ld x6 rMat)) (View.ld x1 rRow)⟩]

theorem cover_10 (p0 : Vec F S16384 .f32) (y : S16384.Idx) :
    ∃ pc ∈ ([⟨rRow, p0⟩] : List (View.Piece (Elt F) S16384 .f32)), y ∈ pc.1.set :=
  View.cover_of_tiled [⟨rRow, p0⟩] S16384.size (by rfl) y
theorem cover_11 (p0 : Vec F S16384 .f32) (y : S16384.Idx) :
    ∃ pc ∈ ([⟨rRow, p0⟩] : List (View.Piece (Elt F) S16384 .f32)), y ∈ pc.1.set :=
  View.cover_of_tiled [⟨rRow, p0⟩] S16384.size (by rfl) y

/-! ## The body's triple -/

set_option maxHeartbeats 4000000 in
/-- The body, on whole staging buffers holding the input blocks `x0 … x9` and anything in the two output buffers, runs to
    the end leaving the inputs as they were and the outputs at `left_10`, `left_11` of the inputs. -/
theorem sound_kernel (c : Dev nD) (E : Set ℕ) (i : grid0.Coords) (arg1 : Memref sig .tc .vmem S16384 .f32) (harg1 : arg1.IsWhole) (arg2 : Memref sig .tc .vmem S16384 .f32) (harg2 : arg2.IsWhole) (arg3 : Memref sig .tc .vmem S16384 .f32) (harg3 : arg3.IsWhole) (arg4 : Memref sig .tc .vmem S16384 .f32) (harg4 : arg4.IsWhole) (arg5 : Memref sig .tc .vmem S2x32 .f32) (harg5 : arg5.IsWhole) (arg6 : Memref sig .tc .vmem S32 .f32) (harg6 : arg6.IsWhole) (arg7 : Memref sig .tc .vmem S32x32 .bf16) (harg7 : arg7.IsWhole) (arg8 : Memref sig .tc .vmem S32x32 .bf16) (harg8 : arg8.IsWhole) (arg9 : Memref sig .tc .vmem S32 .f32) (harg9 : arg9.IsWhole) (arg10 : Memref sig .tc .vmem S32 .f32) (harg10 : arg10.IsWhole) (arg11 : Memref sig .tc .vmem S16384 .f32) (harg11 : arg11.IsWhole) (arg12 : Memref sig .tc .vmem S16384 .f32) (harg12 : arg12.IsWhole)
    (x0 : Vec F S16384 .f32) (x1 : Vec F S16384 .f32) (x2 : Vec F S16384 .f32) (x3 : Vec F S16384 .f32) (x4 : Vec F S2x32 .f32) (x5 : Vec F S32 .f32) (x6 : Vec F S32x32 .bf16) (x7 : Vec F S32x32 .bf16) (x8 : Vec F S32 .f32) (x9 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (left_10 x0 x1 x2 x3 x4 x5 x6 x7 x8 x9) ∗ owns (c : Thread nD τ) arg12 fullShare (left_11 x0 x1 x2 x3 x4 x5 x6 x7 x8 x9)) -∗ K ⟨⟩))
      ⊢ wp frame (wpE (defs₀ (F := F)) Variants.none c none) E (cc0__mlp_grad_kernel i arg1 harg1 arg2 harg2 arg3 harg3 arg4 harg4 arg5 harg5 arg6 harg6 arg7 harg7 arg8 harg8 arg9 harg9 arg10 harg10 arg11 harg11 arg12 harg12) K := by
  simp only [cc0__mlp_grad_kernel_eq_skeleton]; unfold cc0__mlp_grad_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_10 _)
  iexists _; isplitr
  swap; · iexact H11
  ipureintro
  try dsimp only
  exact View.read_writes_eq_canon _ _ _ (cover_11 _)

/-! ## The proof data -/

/-- Per core: the arrays as the grid finds them; after the body at point `t` each input buffer at its block and each output
    buffer at `left_w` of the input blocks; nothing else kept between points. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => left_10 (blockAt m c 0 t) (blockAt m c 1 t) (blockAt m c 2 t) (blockAt m c 3 t) (blockAt m c 4 t) (blockAt m c 5 t) (blockAt m c 6 t) (blockAt m c 7 t) (blockAt m c 8 t) (blockAt m c 9 t)
    | ⟨11, _⟩ => left_11 (blockAt m c 0 t) (blockAt m c 1 t) (blockAt m c 2 t) (blockAt m c 3 t) (blockAt m c 4 t) (blockAt m c 5 t) (blockAt m c 6 t) (blockAt m c 7 t) (blockAt m c 8 t) (blockAt m c 9 t)
  Φ _ := Pipeline.ΦA spec0 c
  q _ := fullShare
  owed _ := 0

theorem A_eq (c : Dev nD) (w : Fin cfg0.W) : (pdata m 0 c).A w = entry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t = blockAt m c 4 t := by dsimp only [pdata]
theorem after_5 (c : Dev nD) (t : Fin cfg0.N) : (pdata m 0 c).after 5 t = blockAt m c 5 t := by dsimp only [pdata]
theorem after_6 (c : Dev nD) (t : Fin cfg0.N) : (pdata m 0 c).after 6 t = blockAt m c 6 t := by dsimp only [pdata]
theorem after_7 (c : Dev nD) (t : Fin cfg0.N) : (pdata m 0 c).after 7 t = blockAt m c 7 t := by dsimp only [pdata]
theorem after_8 (c : Dev nD) (t : Fin cfg0.N) : (pdata m 0 c).after 8 t = blockAt m c 8 t := by dsimp only [pdata]
theorem after_9 (c : Dev nD) (t : Fin cfg0.N) : (pdata m 0 c).after 9 t = blockAt m c 9 t := by dsimp only [pdata]
theorem after_10 (c : Dev nD) (t : Fin cfg0.N) : (pdata m 0 c).after 10 t = left_10 (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [pdata]
theorem after_11 (c : Dev nD) (t : Fin cfg0.N) : (pdata m 0 c).after 11 t = left_11 (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [pdata]

theorem found_0 (c : Dev nD) (t : Fin cfg0.N) (d) : (pdata m 0 c).before 0 t d = blockAt m c 0 t :=
  found_0_of m (pdata m 0 c) (A_eq m c 0) (after_0 m c) t d
theorem found_1 (c : Dev nD) (t : Fin cfg0.N) (d) : (pdata m 0 c).before 1 t d = blockAt m c 1 t :=
  found_1_of m (pdata m 0 c) (A_eq m c 1) (after_1 m c) t d
theorem found_2 (c : Dev nD) (t : Fin cfg0.N) (d) : (pdata m 0 c).before 2 t d = blockAt m c 2 t :=
  found_2_of m (pdata m 0 c) (A_eq m c 2) (after_2 m c) t d
theorem found_3 (c : Dev nD) (t : Fin cfg0.N) (d) : (pdata m 0 c).before 3 t d = blockAt m c 3 t :=
  found_3_of m (pdata m 0 c) (A_eq m c 3) (after_3 m c) t d
theorem found_4 (c : Dev nD) (t : Fin cfg0.N) (d) : (pdata m 0 c).before 4 t d = blockAt m c 4 t :=
  found_4_of m (pdata m 0 c) (A_eq m c 4) (after_4 m c) t d
theorem found_5 (c : Dev nD) (t : Fin cfg0.N) (d) : (pdata m 0 c).before 5 t d = blockAt m c 5 t :=
  found_5_of m (pdata m 0 c) (A_eq m c 5) (after_5 m c) t d
theorem found_6 (c : Dev nD) (t : Fin cfg0.N) (d) : (pdata m 0 c).before 6 t d = blockAt m c 6 t :=
  found_6_of m (pdata m 0 c) (A_eq m c 6) (after_6 m c) t d
theorem found_7 (c : Dev nD) (t : Fin cfg0.N) (d) : (pdata m 0 c).before 7 t d = blockAt m c 7 t :=
  found_7_of m (pdata m 0 c) (A_eq m c 7) (after_7 m c) t d
theorem found_8 (c : Dev nD) (t : Fin cfg0.N) (d) : (pdata m 0 c).before 8 t d = blockAt m c 8 t :=
  found_8_of m (pdata m 0 c) (A_eq m c 8) (after_8 m c) t d
theorem found_9 (c : Dev nD) (t : Fin cfg0.N) (d) : (pdata m 0 c).before 9 t d = blockAt m c 9 t :=
  found_9_of m (pdata m 0 c) (A_eq m c 9) (after_9 m c) t d

/-! ## The body obligation at a point -/

def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d))
    ∗ (∃ d, owns (c : Thread nD τ) (st0_8 t) fullShare ((pdata m 0 c).before 8 t d))
    ∗ (∃ d, owns (c : Thread nD τ) (st0_9 t) fullShare ((pdata m 0 c).before 9 t d))
    ∗ (∃ d, owns (c : Thread nD τ) (st0_10 t) fullShare ((pdata m 0 c).before 10 t d))
    ∗ (∃ d, owns (c : Thread nD τ) (st0_11 t) fullShare ((pdata m 0 c).before 11 t d)))

def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t)
    ∗ owns (c : Thread nD τ) (st0_8 t) fullShare ((pdata m 0 c).after 8 t)
    ∗ owns (c : Thread nD τ) (st0_9 t) fullShare ((pdata m 0 c).after 9 t)
    ∗ owns (c : Thread nD τ) (st0_10 t) fullShare ((pdata m 0 c).after 10 t)
    ∗ owns (c : Thread nD τ) (st0_11 t) fullShare ((pdata m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5, found_6, found_7, found_8, found_9]
  rw [show (pdata m 0 c).Φ t.succ = (pdata m 0 c).Φ t.castSucc from rfl,
    show (pdata m 0 c).owesAt () t.succ = (pdata m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (pdata (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; every window's array ends at what the blocks
    written back make it, and every other buffer as the lines after the grid leave it. -/
theorem run_main : θ_run defs (onTc (τ := τ) (main (F := F))) (s₀ m ρ) (Pipeline.FramePost cfgs (pdata m) 0 (Pipeline.afterTail₀ cfgs (pdata m) 0 (entry0 m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry0 m) (opss := [hostOps1]) (hsub := tail_sub) (hfresh := tail_fresh) (hkeep := tail_keeps)
    (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (pdata m) (A_eq m) (run_main m ρ)

end Cert.KernelIdeal.Around

end
-- ==== Proof.Spec.lean ====
/-
  One row of the computation, as mathematics on the extended reals. A row carries two inputs `y1`, `y2`; the network is
  two hidden layers of 32 logistic units and a linear read-out. With first-layer weights `wa k`, `wb k` (one per input)
  and bias `b1 k`, second-layer weights `w2 k j` and bias `b2 j`, and read-out weights `w3 j`:
    act1 k = σ(wa k · y1 + wb k · y2 + b1 k),        act2 j = σ(Σ_k w2 k j · act1 k + b2 j),
  and the derivative of the read-out Σ_j w3 j · act2 j with respect to the inputs is obtained by the chain rule through
  σ' = σ · (1 − σ):
    back2 j = act2 j · (1 − act2 j) · w3 j,           back1 k = act1 k · (1 − act1 k) · Σ_j w2 k j · back2 j,
    gradA = Σ_k back1 k · wa k,                       gradB = Σ_k back1 k · wb k.
  Both programs compute `x1 + gradA` and `x2 + gradB` row by row; they differ only in the order of the factors of the
  products, and multiplication of extended reals is commutative.
-/
import Idealize.ShloMosaic.PureOps.Ideal
import Idealize.ShloMosaic.PureOps.Ideal.Laws

noncomputable section

namespace Cert.MlpGrad

open Idealize.ShloMosaic

/-- The f32 word of 1.0 denotes the real number one. -/
theorem one_word : Ideal.ofBits .f32 0x3F800000#32 = 1 := by
  simp [Ideal.ofBits, Ideal.ieee, -EReal.coe_mul]; norm_num

variable (wa wb b1 : Fin 32 → EReal) (w2 : Fin 32 → Fin 32 → EReal) (b2 w3 : Fin 32 → EReal) (y1 y2 : EReal)

/-- first hidden layer -/
def act1 (k : Fin 32) : EReal := Ideal.logistic (wa k * y1 + wb k * y2 + b1 k)
/-- second hidden layer -/
def act2 (j : Fin 32) : EReal := Ideal.logistic ((∑ k : Fin 32, w2 k j * act1 wa wb b1 y1 y2 k) + b2 j)
/-- the read-out's derivative at the second layer's pre-activations -/
def back2 (j : Fin 32) : EReal := act2 wa wb b1 w2 b2 y1 y2 j * (1 - act2 wa wb b1 w2 b2 y1 y2 j) * w3 j
/-- and at the first layer's -/
def back1 (k : Fin 32) : EReal :=
  act1 wa wb b1 y1 y2 k * (1 - act1 wa wb b1 y1 y2 k) * ∑ j : Fin 32, w2 k j * back2 wa wb b1 w2 b2 w3 y1 y2 j
/-- the derivative with respect to the first input -/
def gradA : EReal := ∑ k : Fin 32, back1 wa wb b1 w2 b2 w3 y1 y2 k * wa k
/-- and to the second -/
def gradB : EReal := ∑ k : Fin 32, back1 wa wb b1 w2 b2 w3 y1 y2 k * wb k

end Cert.MlpGrad

end
-- ==== Proof.KernelRow.lean ====
/-
  What the body's arithmetic computes, entry by entry, on the extended reals. With the loaded values as variables — the two
  blocks `v0`, `v1` of the row inputs, the two rows `v2`, `v4` of the first weight, the biases `v6`, `v22`, the
  read-out column `v31`, the second weight `v39` and its transpose `v23` — column `j` of each 32 × 16384 intermediate
  is one row's quantity of `Cert.MlpGrad`: the first logistic layer is `act1`, the matrix product with the transposed
  weight followed by the second logistic layer is `act2`, the product with the weight itself of `back2` gives `back1`'s
  inner sum, and the two column sums over the 32 hidden units are `gradA` and `gradB`.
-/
import proofs.«157394_j84009560310416_1_alg».proof.Proof.Gen.KernelIdeal.Skeleton
import proofs.«157394_j84009560310416_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.MlpGrad

/-- A 32-vector laid out as a column and repeated along the rows' axis reads, at `(k, j)`, its entry `k`. -/
theorem col_apply (v : FVec Ideal S32 .f32) (k : Fin 32) (j : Fin 16384) :
    broadcastTo S32x16384 (shapeCast S32x1 v shapeCasts_S32_S32x1) broadcasts_S32x1_S32x16384 (ix2 k j) = v (ix1 k) := by
  refine (broadcastTo_apply _ broadcasts_S32x1_S32x16384 (ix2 k j) (ix2 k (0 : Fin 1)) fun ax => ?_).trans ?_
  · match ax with
    | ⟨0, _⟩ => rfl
    | ⟨1, _⟩ => rfl
  · exact shapeCast_apply v shapeCasts_S32_S32x1 _ _ (by
      rw [Shape.rowMajor_val_one, Shape.rowMajor_val_two]; show k.val = k.val * 1 + 0; omega)

/-- A block of 16384 rows laid out as a row and repeated along the hidden units' axis reads, at `(k, j)`, its entry `j`. -/
theorem row_apply (v : FVec Ideal S16384 .f32) (k : Fin 32) (j : Fin 16384) :
    broadcastTo S32x16384 (shapeCast S1x16384 v shapeCasts_S16384_S1x16384) broadcasts_S1x16384_S32x16384 (ix2 k j) = v (ix1 j) :=
  (broadcastTo_1b_ab_apply _ broadcasts_S1x16384_S32x16384 k j).trans (shapeCast_a_1a_apply v shapeCasts_S16384_S1x16384 0 j)

theorem firstRow_apply (v2 : Vec Ideal S1x32 .f32) (k : Fin 32) : k0_pay4 v2 (ix1 k) = v2 (ix2 (0 : Fin 1) k) := by
  unfold k0_pay4; exact shapeCast_1a_a_apply v2 shapeCasts_S1x32_S32 k
theorem secondRow_apply (v4 : Vec Ideal S1x32 .f32) (k : Fin 32) : k0_pay5 v4 (ix1 k) = v4 (ix2 (0 : Fin 1) k) := by
  unfold k0_pay5; exact shapeCast_1a_a_apply v4 shapeCasts_S1x32_S32 k

/-! ## The matrix product into a zero accumulator, as a sum over the 32 hidden units -/

theorem lhs_0 (i : S32x16384.Idx) (q : dot_S32x32_S32x16384_S32x16384_1_0_0_1_n_n.contr.Idx) : (dot_S32x32_S32x16384_S32x16384_1_0_0_1_n_n.lhsIdx i q 0).val = (i 0).val := by
  unfold DotDims.lhsIdx
  rw [dif_neg (show ¬(0 : Fin S32x32.rank) ∈ dot_S32x32_S32x16384_S32x16384_1_0_0_1_n_n.lhsBatch by decide), dif_pos (show (0 : Fin S32x32.rank) ∈ dot_S32x32_S32x16384_S32x16384_1_0_0_1_n_n.lhsNonContracting by decide)]
  rfl
theorem lhs_1 (i : S32x16384.Idx) (q : dot_S32x32_S32x16384_S32x16384_1_0_0_1_n_n.contr.Idx) : (dot_S32x32_S32x16384_S32x16384_1_0_0_1_n_n.lhsIdx i q 1).val = (q ⟨0, by decide⟩).val :=
  dot_S32x32_S32x16384_S32x16384_1_0_0_1_n_n.lhsIdx_val_of_single rfl i q
theorem rhs_0 (i : S32x16384.Idx) (q : dot_S32x32_S32x16384_S32x16384_1_0_0_1_n_n.contr.Idx) : (dot_S32x32_S32x16384_S32x16384_1_0_0_1_n_n.rhsIdx i q 0).val = (q ⟨0, by decide⟩).val :=
  dot_S32x32_S32x16384_S32x16384_1_0_0_1_n_n.rhsIdx_val_of_single rfl i q
theorem rhs_1 (i : S32x16384.Idx) (q : dot_S32x32_S32x16384_S32x16384_1_0_0_1_n_n.contr.Idx) : (dot_S32x32_S32x16384_S32x16384_1_0_0_1_n_n.rhsIdx i q 1).val = (i 1).val := by
  unfold DotDims.rhsIdx
  rw [dif_neg (show ¬(1 : Fin S32x16384.rank) ∈ dot_S32x32_S32x16384_S32x16384_1_0_0_1_n_n.rhsBatch by decide), dif_pos (show (1 : Fin S32x16384.rank) ∈ dot_S32x32_S32x16384_S32x16384_1_0_0_1_n_n.rhsNonContracting by decide)]
  rfl

theorem product_apply (A : FVec Ideal S32x32 .bf16) (B : FVec Ideal S32x16384 .bf16) (p : Fin 32) (j : Fin 16384) :
    matmul dot_S32x32_S32x16384_S32x16384_1_0_0_1_n_n none A B (constant S32x16384 .f32 0x00000000#32) (ix2 p j) = ∑ k : Fin 32, A (ix2 p k) * B (ix2 k j) := by
  simp only [matmul]
  rw [Ideal.matmul_constant_zero_apply, ← Equiv.sum_comp (ValueIdx.contrEquiv1 dot_S32x32_S32x16384_S32x16384_1_0_0_1_n_n 32 rfl rfl).symm]
  refine Finset.sum_congr rfl fun k _ => ?_
  have hk := ValueIdx.contrEquiv1_symm_val dot_S32x32_S32x16384_S32x16384_1_0_0_1_n_n 32 rfl rfl k
  have el : dot_S32x32_S32x16384_S32x16384_1_0_0_1_n_n.lhsIdx (ix2 p j) ((ValueIdx.contrEquiv1 dot_S32x32_S32x16384_S32x16384_1_0_0_1_n_n 32 rfl rfl).symm k) = ix2 p k := funext fun a => Fin.ext (by
    match a with
    | ⟨0, _⟩ => exact lhs_0 _ _
    | ⟨1, _⟩ => exact (lhs_1 _ _).trans hk)
  have er : dot_S32x32_S32x16384_S32x16384_1_0_0_1_n_n.rhsIdx (ix2 p j) ((ValueIdx.contrEquiv1 dot_S32x32_S32x16384_S32x16384_1_0_0_1_n_n 32 rfl rfl).symm k) = ix2 k j := funext fun a => Fin.ext (by
    match a with
    | ⟨0, _⟩ => exact (rhs_0 _ _).trans hk
    | ⟨1, _⟩ => exact rhs_1 _ _)
  rw [el, er]

/-! ## The column sum over the 32 hidden units -/

theorem colsum_apply (X : FVec Ideal S32x16384 .f32) (hacc : (0x00000000#32 : BitVec 32) = 0x00000000#32) (j : Fin 16384) :
    multiReduction .add [0] S16384 X 0x00000000#32 reduces_S32x16384_S16384 (.inl rfl) hacc (ix1 j) = ∑ k : Fin 32, X (ix2 k j) := by
  refine (Ideal.multiReduction_add_single X 0x00000000#32 reduces_S32x16384_S16384 (.inl rfl) hacc (ix1 j)).trans ?_
  refine Finset.sum_congr rfl fun k _ => congrArg X (funext fun a => Fin.ext ?_)
  match a with
  | ⟨0, _⟩ => rfl
  | ⟨1, _⟩ => rfl

/-! ## The intermediates, column by column -/

section
variable (v0 v1 v55 v58 : Vec Ideal S16384 .f32) (v2 v4 : Vec Ideal S1x32 .f32) (v6 v22 v31 : Vec Ideal S32 .f32) (v23 v39 : Vec Ideal S32x32 .bf16)

theorem hidden1_apply (k : Fin 32) (j : Fin 16384) :
    k0_pay6 v0 v1 v2 v4 v6 (ix2 k j)
      = act1 (fun k => v2 (ix2 (0 : Fin 1) k)) (fun k => v4 (ix2 (0 : Fin 1) k)) (fun k => v6 (ix1 k)) (v0 (ix1 j)) (v1 (ix1 j)) k := by
  show Ideal.logistic (
      broadcastTo S32x16384 (shapeCast S32x1 (k0_pay4 v2) shapeCasts_S32_S32x1) broadcasts_S32x1_S32x16384 (ix2 k j)
        * broadcastTo S32x16384 (shapeCast S1x16384 v0 shapeCasts_S16384_S1x16384) broadcasts_S1x16384_S32x16384 (ix2 k j)
      + broadcastTo S32x16384 (shapeCast S32x1 (k0_pay5 v4) shapeCasts_S32_S32x1) broadcasts_S32x1_S32x16384 (ix2 k j)
        * broadcastTo S32x16384 (shapeCast S1x16384 v1 shapeCasts_S16384_S1x16384) broadcasts_S1x16384_S32x16384 (ix2 k j)
      + broadcastTo S32x16384 (shapeCast S32x1 v6 shapeCasts_S32_S32x1) broadcasts_S32x1_S32x16384 (ix2 k j)) = _
  rw [col_apply, row_apply, col_apply, row_apply, col_apply, firstRow_apply, secondRow_apply]
  rfl

end

/-! ## The second layer, the backward pass, and the two updated blocks -/

section
variable (v0 v1 v55 v58 : Vec Ideal S16384 .f32) (v2 v4 : Vec Ideal S1x32 .f32) (v6 v22 v31 : Vec Ideal S32 .f32) (v23 v39 : Vec Ideal S32x32 .bf16)

/-- the second logistic layer over the whole block -/
def layer2 : FVec Ideal S32x16384 .f32 :=
  logistic (addf (matmul dot_S32x32_S32x16384_S32x16384_1_0_0_1_n_n none (shapeCast S32x32 v23 shapeCasts_S32x32_S32x32 : FVec Ideal S32x32 .bf16) (truncf .bf16 (k0_pay6 v0 v1 v2 v4 v6) bitsLt_bf16_f32) (constant S32x16384 .f32 0x00000000#32))
    (broadcastTo S32x16384 (shapeCast S32x1 v22 shapeCasts_S32_S32x1) broadcasts_S32x1_S32x16384))

/-- the read-out's derivative at the second layer's pre-activations, over the whole block -/
def dlayer2 : FVec Ideal S32x16384 .f32 :=
  mulf (mulf (layer2 v0 v1 v2 v4 v6 v22 v23) (subf (broadcast S32x16384 (Scalar.ofBits .f32 0x3F800000#32)) (layer2 v0 v1 v2 v4 v6 v22 v23)))
    (broadcastTo S32x16384 (shapeCast S32x1 (shapeCast S32 v31 shapeCasts_S32_S32) shapeCasts_S32_S32x1) broadcasts_S32x1_S32x16384)

theorem backProduct_eq : k0_pay7 v0 v1 v2 v4 v6 v22 v23 v31 v39
    = matmul dot_S32x32_S32x16384_S32x16384_1_0_0_1_n_n none (shapeCast S32x32 v39 shapeCasts_S32x32_S32x32 : FVec Ideal S32x32 .bf16) (truncf .bf16 (dlayer2 v0 v1 v2 v4 v6 v22 v31 v23) bitsLt_bf16_f32) (constant S32x16384 .f32 0x00000000#32) := rfl

theorem layer2_apply (p : Fin 32) (j : Fin 16384) :
    layer2 v0 v1 v2 v4 v6 v22 v23 (ix2 p j)
      = act2 (fun k => v2 (ix2 (0 : Fin 1) k)) (fun k => v4 (ix2 (0 : Fin 1) k)) (fun k => v6 (ix1 k)) (fun k p => v23 (ix2 p k)) (fun p => v22 (ix1 p)) (v0 (ix1 j)) (v1 (ix1 j)) p := by
  show Ideal.logistic (matmul dot_S32x32_S32x16384_S32x16384_1_0_0_1_n_n none (shapeCast S32x32 v23 shapeCasts_S32x32_S32x32 : FVec Ideal S32x32 .bf16) (truncf .bf16 (k0_pay6 v0 v1 v2 v4 v6) bitsLt_bf16_f32) (constant S32x16384 .f32 0x00000000#32) (ix2 p j)
      + broadcastTo S32x16384 (shapeCast S32x1 v22 shapeCasts_S32_S32x1) broadcasts_S32x1_S32x16384 (ix2 p j)) = _
  rw [product_apply, col_apply, shapeCast_self]
  simp only [truncf_apply, hidden1_apply]
  rfl

theorem dlayer2_apply (p : Fin 32) (j : Fin 16384) :
    dlayer2 v0 v1 v2 v4 v6 v22 v31 v23 (ix2 p j)
      = back2 (fun k => v2 (ix2 (0 : Fin 1) k)) (fun k => v4 (ix2 (0 : Fin 1) k)) (fun k => v6 (ix1 k)) (fun k p => v23 (ix2 p k)) (fun p => v22 (ix1 p)) (fun p => v31 (ix1 p)) (v0 (ix1 j)) (v1 (ix1 j)) p := by
  show layer2 v0 v1 v2 v4 v6 v22 v23 (ix2 p j) * (Ideal.ofBits .f32 0x3F800000#32 - layer2 v0 v1 v2 v4 v6 v22 v23 (ix2 p j))
      * broadcastTo S32x16384 (shapeCast S32x1 (shapeCast S32 v31 shapeCasts_S32_S32) shapeCasts_S32_S32x1) broadcasts_S32x1_S32x16384 (ix2 p j) = _
  rw [col_apply, layer2_apply, one_word, shapeCast_self]
  rfl

theorem backProduct_apply (k : Fin 32) (j : Fin 16384) :
    k0_pay7 v0 v1 v2 v4 v6 v22 v23 v31 v39 (ix2 k j)
      = ∑ p : Fin 32, v39 (ix2 k p) * back2 (fun k => v2 (ix2 (0 : Fin 1) k)) (fun k => v4 (ix2 (0 : Fin 1) k)) (fun k => v6 (ix1 k)) (fun k p => v23 (ix2 p k)) (fun p => v22 (ix1 p)) (fun p => v31 (ix1 p)) (v0 (ix1 j)) (v1 (ix1 j)) p := by
  rw [backProduct_eq, product_apply, shapeCast_self]
  simp only [truncf_apply, dlayer2_apply]

theorem dlayer1_apply (v21 v42 : FVec Ideal S32x16384 .f32) (k : Fin 32) (j : Fin 16384) :
    k0_pay1 v21 v42 (ix2 k j) = v21 (ix2 k j) * (1 - v21 (ix2 k j)) * v42 (ix2 k j) := by
  show v21 (ix2 k j) * (Ideal.ofBits .f32 0x3F800000#32 - v21 (ix2 k j)) * v42 (ix2 k j) = _
  rw [one_word]

theorem sumA_apply (v3 : FVec Ideal S32 .f32) (v21 v42 : FVec Ideal S32x16384 .f32) (j : Fin 16384) :
    k0_pay2 v3 v21 v42 v55 (ix1 j) = v55 (ix1 j) + ∑ k : Fin 32, k0_pay1 v21 v42 (ix2 k j) * v3 (ix1 k) := by
  show v55 (ix1 j) + multiReduction .add [0] S16384 (mulf (k0_pay1 v21 v42) (broadcastTo S32x16384 (shapeCast S32x1 v3 shapeCasts_S32_S32x1) broadcasts_S32x1_S32x16384)) 0x00000000#32 reduces_S32x16384_S16384 (.inl rfl) rfl (ix1 j) = _
  refine congrArg (v55 (ix1 j) + ·) ((colsum_apply _ rfl j).trans (Finset.sum_congr rfl fun k _ => ?_))
  show k0_pay1 v21 v42 (ix2 k j) * broadcastTo S32x16384 (shapeCast S32x1 v3 shapeCasts_S32_S32x1) broadcasts_S32x1_S32x16384 (ix2 k j) = _
  rw [col_apply]

theorem sumB_apply (v5 : FVec Ideal S32 .f32) (v21 v42 : FVec Ideal S32x16384 .f32) (j : Fin 16384) :
    k0_pay3 v5 v21 v42 v58 (ix1 j) = v58 (ix1 j) + ∑ k : Fin 32, k0_pay1 v21 v42 (ix2 k j) * v5 (ix1 k) := by
  show v58 (ix1 j) + multiReduction .add [0] S16384 (mulf (k0_pay1 v21 v42) (broadcastTo S32x16384 (shapeCast S32x1 v5 shapeCasts_S32_S32x1) broadcasts_S32x1_S32x16384)) 0x00000000#32 reduces_S32x16384_S16384 (.inl rfl) rfl (ix1 j) = _
  refine congrArg (v58 (ix1 j) + ·) ((colsum_apply _ rfl j).trans (Finset.sum_congr rfl fun k _ => ?_))
  show k0_pay1 v21 v42 (ix2 k j) * broadcastTo S32x16384 (shapeCast S32x1 v5 shapeCasts_S32_S32x1) broadcasts_S32x1_S32x16384 (ix2 k j) = _
  rw [col_apply]

/-- THE FIRST UPDATED BLOCK, row `j`: the first row vector's entry plus the derivative with respect to the first input, when the
    matrix operand of the forward product is the transpose of the backward one's. -/
theorem updatedA_apply (hT : ∀ k p, v23 (ix2 p k) = v39 (ix2 k p)) (j : Fin 16384) :
    k0_pay2 (k0_pay4 v2) (k0_pay6 v0 v1 v2 v4 v6) (k0_pay7 v0 v1 v2 v4 v6 v22 v23 v31 v39) v55 (ix1 j)
      = v55 (ix1 j) + gradA (fun k => v2 (ix2 (0 : Fin 1) k)) (fun k => v4 (ix2 (0 : Fin 1) k)) (fun k => v6 (ix1 k)) (fun k p => v39 (ix2 k p)) (fun p => v22 (ix1 p)) (fun p => v31 (ix1 p)) (v0 (ix1 j)) (v1 (ix1 j)) := by
  have hw : (fun k p => v23 (ix2 p k)) = fun k p => v39 (ix2 k p) := funext fun k => funext fun p => hT k p
  rw [sumA_apply]
  simp only [dlayer1_apply, hidden1_apply, backProduct_apply, firstRow_apply, hw]
  rfl

/-- THE SECOND UPDATED BLOCK, likewise. -/
theorem updatedB_apply (hT : ∀ k p, v23 (ix2 p k) = v39 (ix2 k p)) (j : Fin 16384) :
    k0_pay3 (k0_pay5 v4) (k0_pay6 v0 v1 v2 v4 v6) (k0_pay7 v0 v1 v2 v4 v6 v22 v23 v31 v39) v58 (ix1 j)
      = v58 (ix1 j) + gradB (fun k => v2 (ix2 (0 : Fin 1) k)) (fun k => v4 (ix2 (0 : Fin 1) k)) (fun k => v6 (ix1 k)) (fun k p => v39 (ix2 k p)) (fun p => v22 (ix1 p)) (fun p => v31 (ix1 p)) (v0 (ix1 j)) (v1 (ix1 j)) := by
  have hw : (fun k p => v23 (ix2 p k)) = fun k p => v39 (ix2 k p) := funext fun k => funext fun p => hT k p
  rw [sumB_apply]
  simp only [dlayer1_apply, hidden1_apply, backProduct_apply, secondRow_apply, hw]
  rfl

end

end Cert.KernelIdeal.Row

end
-- ==== Proof.Whole.lean ====
/-
  The two updated row vectors as whole-array functions of the argument arrays: row `i` of the result is row `i` of the
  first (second) row vector plus the derivative, with respect to the first (second) input, of the network's read-out at the
  inputs `(y1 i, y2 i)` — `Cert.MlpGrad.gradA`, `gradB` with the weights read off the parameter arrays entry by entry.
-/
import proofs.«157394_j84009560310416_1_alg».proof.Proof.Spec
import Idealize.ShloMosaic.Lib.ValueIdx

noncomputable section

namespace Cert.MlpGrad

open Idealize.ShloMosaic Idealize.ShloMosaic.ValueIdx

/-- `A0` the first row vector, `A2`, `A3` the two inputs, `A4` the 2 × 32 first weight, `A5` its bias, `A6` the 32 × 32
    second weight, `A7` its bias, `A8` the 32 × 1 read-out weight. -/
def updatedA (A0 A2 A3 : (⟨1, ![4194304]⟩ : Shape).Idx → EReal) (A4 : (⟨2, ![2, 32]⟩ : Shape).Idx → EReal)
    (A5 : (⟨1, ![32]⟩ : Shape).Idx → EReal) (A6 : (⟨2, ![32, 32]⟩ : Shape).Idx → EReal) (A7 : (⟨1, ![32]⟩ : Shape).Idx → EReal)
    (A8 : (⟨2, ![32, 1]⟩ : Shape).Idx → EReal) : (⟨1, ![4194304]⟩ : Shape).Idx → EReal :=
  fun i => A0 i + gradA (fun k => A4 (ix2 (0 : Fin 2) k)) (fun k => A4 (ix2 (1 : Fin 2) k)) (fun k => A5 (ix1 k))
    (fun k p => A6 (ix2 k p)) (fun p => A7 (ix1 p)) (fun p => A8 (ix2 p (0 : Fin 1))) (A2 i) (A3 i)

/-- The same for the second row vector `A1`. -/
def updatedB (A1 A2 A3 : (⟨1, ![4194304]⟩ : Shape).Idx → EReal) (A4 : (⟨2, ![2, 32]⟩ : Shape).Idx → EReal)
    (A5 : (⟨1, ![32]⟩ : Shape).Idx → EReal) (A6 : (⟨2, ![32, 32]⟩ : Shape).Idx → EReal) (A7 : (⟨1, ![32]⟩ : Shape).Idx → EReal)
    (A8 : (⟨2, ![32, 1]⟩ : Shape).Idx → EReal) : (⟨1, ![4194304]⟩ : Shape).Idx → EReal :=
  fun i => A1 i + gradB (fun k => A4 (ix2 (0 : Fin 2) k)) (fun k => A4 (ix2 (1 : Fin 2) k)) (fun k => A5 (ix1 k))
    (fun k p => A6 (ix2 k p)) (fun p => A7 (ix1 p)) (fun p => A8 (ix2 p (0 : Fin 1))) (A2 i) (A3 i)

end Cert.MlpGrad

end
-- ==== Proof.KernelIdealValue.lean ====
/-
  The value the program ends with, at the ideal instance. Block `t` of each updated row vector is what point `t` writes back;
  read entry by entry it is the row's entry plus the network's input derivative (`Cert.KernelIdeal.Row`), with every
  parameter read off the argument arrays: the blocks of the four row vectors sit at rows `16384·t … 16384·t + 16383`,
  the six parameter windows are their whole arrays, and the three derived operands are the second weight (unchanged by a
  change of format), its transpose, and the read-out weight's one column. The 256 blocks tile the 4194304 rows, so each
  updated row vector is the whole-array function `Cert.MlpGrad.updatedA`, `updatedB` of the arguments, and the result is
  those two beside the two inputs, as the four columns of one array.
-/
import proofs.«157394_j84009560310416_1_alg».proof.Proof.KernelIdealAround
import proofs.«157394_j84009560310416_1_alg».proof.Proof.KernelRow
import proofs.«157394_j84009560310416_1_alg».proof.Proof.Whole
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Whole

open Cert.KernelIdeal Cert.KernelIdeal.Gen Cert.KernelIdeal.Around Cert.KernelIdeal.Row Cert.MlpGrad
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The three derived operands, entry by entry -/

/-- the transposed second weight -/
theorem transposed_apply (c : Dev nD) (p k : Fin 32) : entry m c main_v3 (ix2 p k) = (m ((c : Thread nD τ).loc main_arg6)) (ix2 k p) := by
  have e : (entry m c main_v3 : S32x32.Idx → EReal) = (truncf (F := Ideal) .bf16 (transpose S32x32 [1, 0] ((m ((c : Thread nD τ).loc main_arg6)) : FVec Ideal S32x32 .f32) transposes_S32x32_S32x32_1_0) bitsLt_bf16_f32 : FVec Ideal S32x32 .bf16) := by
    show StableHlo.after hostOps0 (fun b => m (c, b)) (Proc.devRef .tc main_v3) = _
    after_results <;> rfl
  rw [e]
  exact transpose_ix2_apply _ transposes_S32x32_S32x32_1_0 p k

/-- the second weight after its change of format -/
theorem rounded_apply (c : Dev nD) (k p : Fin 32) : entry m c main_v2 (ix2 k p) = (m ((c : Thread nD τ).loc main_arg6)) (ix2 k p) := by
  have e : (entry m c main_v2 : S32x32.Idx → EReal) = (truncf (F := Ideal) .bf16 ((m ((c : Thread nD τ).loc main_arg6)) : FVec Ideal S32x32 .f32) bitsLt_bf16_f32 : FVec Ideal S32x32 .bf16) := by
    show StableHlo.after hostOps0 (fun b => m (c, b)) (Proc.devRef .tc main_v2) = _
    after_results <;> rfl
  rw [e]; rfl

/-- the read-out weight's one column as a vector -/
theorem column_apply (c : Dev nD) (p : Fin 32) : entry m c main_v1 (ix1 p) = (m ((c : Thread nD τ).loc main_arg8)) (ix2 p (0 : Fin 1)) := by
  have e : (entry m c main_v1 : S32.Idx → EReal) = shapeCast S32 ((m ((c : Thread nD τ).loc main_arg8)) : S32x1.Idx → EReal) shapeCasts_S32x1_S32 := by
    show StableHlo.after hostOps0 (fun b => m (c, b)) (Proc.devRef .tc main_v1) = _
    after_results <;> rfl
  rw [e]
  exact shapeCast_apply _ shapeCasts_S32x1_S32 (ix1 p) (ix2 p (0 : Fin 1)) (by
    rw [Shape.rowMajor_val_two, Shape.rowMajor_val_one]; show p.val * 1 + 0 = p.val; omega)

/-! ## Where the blocks sit -/

theorem hz1 : (![0] : Fin 1 → Nat) = fun _ => 0 := funext fun a => by fin_cases a <;> rfl
theorem hz2 : (![0, 0] : Fin 2 → Nat) = fun _ => 0 := funext fun a => by fin_cases a <;> rfl

/-- The row windows' block index at point `t` is `t`, -/
theorem rows_idx : ∀ t : Fin cfg0.N, win0_0.index t (0 : Fin 1) = t.val ∧ win0_1.index t (0 : Fin 1) = t.val ∧ win0_2.index t (0 : Fin 1) = t.val
    ∧ win0_3.index t (0 : Fin 1) = t.val ∧ win0_10.index t (0 : Fin 1) = t.val ∧ win0_11.index t (0 : Fin 1) = t.val :=
  (by decide +kernel : ∀ t : Fin grid0.N, _)
/-- and the parameter windows' is zero. -/
theorem params_idx : ∀ t : Fin cfg0.N, win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 2) = 0 ∧ win0_7.index t (1 : Fin 2) = 0
    ∧ win0_8.index t (0 : Fin 1) = 0 ∧ win0_9.index t (0 : Fin 1) = 0 :=
  (by decide +kernel : ∀ t : Fin grid0.N, _)

/-- Row `j` of block `t` is row `16384·t + j` of the array. -/
def rowOf (t : Fin cfg0.N) (j : Fin 16384) : Fin 4194304 :=
  ⟨t.val * 16384 + j.val, by have ht : t.val < 256 := lt_of_lt_of_eq t.isLt N_0; have := j.isLt; omega⟩

theorem row0_read (c : Dev nD) (t : Fin cfg0.N) (j : Fin 16384) :
    blockAt m c 0 t (ix1 j) = (m ((c : Thread nD τ).loc main_arg0)) (ix1 (rowOf t j)) := by
  show entry m c main_arg0 (((cfg0.win 0).blk t).view.emb (ix1 j)) = _
  rw [entry_main_arg0]
  refine congrArg _ (funext fun a => Fin.ext ?_)
  match a with
  | ⟨0, _⟩ =>
    show win0_0.index t (0 : Fin 1) * 16384 + 1 * j.val = t.val * 16384 + j.val
    rw [(rows_idx t).1]; omega
theorem row1_read (c : Dev nD) (t : Fin cfg0.N) (j : Fin 16384) :
    blockAt m c 1 t (ix1 j) = (m ((c : Thread nD τ).loc main_arg1)) (ix1 (rowOf t j)) := by
  show entry m c main_arg1 (((cfg0.win 1).blk t).view.emb (ix1 j)) = _
  rw [entry_main_arg1]
  refine congrArg _ (funext fun a => Fin.ext ?_)
  match a with
  | ⟨0, _⟩ =>
    show win0_1.index t (0 : Fin 1) * 16384 + 1 * j.val = t.val * 16384 + j.val
    rw [(rows_idx t).2.1]; omega
theorem row2_read (c : Dev nD) (t : Fin cfg0.N) (j : Fin 16384) :
    blockAt m c 2 t (ix1 j) = (m ((c : Thread nD τ).loc main_arg2)) (ix1 (rowOf t j)) := by
  show entry m c main_arg2 (((cfg0.win 2).blk t).view.emb (ix1 j)) = _
  rw [entry_main_arg2]
  refine congrArg _ (funext fun a => Fin.ext ?_)
  match a with
  | ⟨0, _⟩ =>
    show win0_2.index t (0 : Fin 1) * 16384 + 1 * j.val = t.val * 16384 + j.val
    rw [(rows_idx t).2.2.1]; omega
theorem row3_read (c : Dev nD) (t : Fin cfg0.N) (j : Fin 16384) :
    blockAt m c 3 t (ix1 j) = (m ((c : Thread nD τ).loc main_arg3)) (ix1 (rowOf t j)) := by
  show entry m c main_arg3 (((cfg0.win 3).blk t).view.emb (ix1 j)) = _
  rw [entry_main_arg3]
  refine congrArg _ (funext fun a => Fin.ext ?_)
  match a with
  | ⟨0, _⟩ =>
    show win0_3.index t (0 : Fin 1) * 16384 + 1 * j.val = t.val * 16384 + j.val
    rw [(rows_idx t).2.2.2.1]; omega
theorem outA_index (t : Fin cfg0.N) (j : Fin 16384) : ((cfg0.win 10).blk t).view.emb (ix1 j) = ix1 (rowOf t j) := by
  refine funext fun a => Fin.ext ?_
  match a with
  | ⟨0, _⟩ =>
    show win0_10.index t (0 : Fin 1) * 16384 + 1 * j.val = t.val * 16384 + j.val
    rw [(rows_idx t).2.2.2.2.1]; omega
theorem outB_index (t : Fin cfg0.N) (j : Fin 16384) : ((cfg0.win 11).blk t).view.emb (ix1 j) = ix1 (rowOf t j) := by
  refine funext fun a => Fin.ext ?_
  match a with
  | ⟨0, _⟩ =>
    show win0_11.index t (0 : Fin 1) * 16384 + 1 * j.val = t.val * 16384 + j.val
    rw [(rows_idx t).2.2.2.2.2]; omega

theorem bias1_read (c : Dev nD) (t : Fin cfg0.N) (k : Fin 32) : blockAt m c 5 t (ix1 k) = (m ((c : Thread nD τ).loc main_arg5)) (ix1 k) := by
  show entry m c main_arg5 (((cfg0.win 5).blk t).view.emb (ix1 k)) = _
  rw [entry_main_arg5]
  refine congrArg _ (funext fun a => Fin.ext ?_)
  match a with
  | ⟨0, _⟩ =>
    show win0_5.index t (0 : Fin 1) * 32 + 1 * k.val = k.val
    rw [(params_idx t).2.2.1]; omega
theorem bias2_read (c : Dev nD) (t : Fin cfg0.N) (k : Fin 32) : blockAt m c 8 t (ix1 k) = (m ((c : Thread nD τ).loc main_arg7)) (ix1 k) := by
  show entry m c main_arg7 (((cfg0.win 8).blk t).view.emb (ix1 k)) = _
  rw [entry_main_arg7]
  refine congrArg _ (funext fun a => Fin.ext ?_)
  match a with
  | ⟨0, _⟩ =>
    show win0_8.index t (0 : Fin 1) * 32 + 1 * k.val = k.val
    rw [(params_idx t).2.2.2.2.2.2.2.1]; omega

theorem readout_read (c : Dev nD) (t : Fin cfg0.N) (p : Fin 32) : blockAt m c 9 t (ix1 p) = (m ((c : Thread nD τ).loc main_arg8)) (ix2 p (0 : Fin 1)) := by
  show entry m c main_v1 (((cfg0.win 9).blk t).view.emb (ix1 p)) = _
  have e : ((cfg0.win 9).blk t).view.emb (ix1 p) = ix1 p := funext fun a => Fin.ext (by
    match a with
    | ⟨0, _⟩ =>
      show win0_9.index t (0 : Fin 1) * 32 + 1 * p.val = p.val
      rw [(params_idx t).2.2.2.2.2.2.2.2]; omega)
  rw [e]; exact column_apply m c p

theorem weight2_read (c : Dev nD) (t : Fin cfg0.N) (k p : Fin 32) : blockAt m c 6 t (ix2 k p) = (m ((c : Thread nD τ).loc main_arg6)) (ix2 k p) := by
  show entry m c main_v2 (((cfg0.win 6).blk t).view.emb (ix2 k p)) = _
  have e : ((cfg0.win 6).blk t).view.emb (ix2 k p) = ix2 k p := funext fun a => Fin.ext (by
    match a with
    | ⟨0, _⟩ =>
      show win0_6.index t (0 : Fin 2) * 32 + 1 * k.val = k.val
      rw [(params_idx t).2.2.2.1]; omega
    | ⟨1, _⟩ =>
      show win0_6.index t (1 : Fin 2) * 32 + 1 * p.val = p.val
      rw [(params_idx t).2.2.2.2.1]; omega)
  rw [e]; exact rounded_apply m c k p

theorem weight2T_read (c : Dev nD) (t : Fin cfg0.N) (p k : Fin 32) : blockAt m c 7 t (ix2 p k) = (m ((c : Thread nD τ).loc main_arg6)) (ix2 k p) := by
  show entry m c main_v3 (((cfg0.win 7).blk t).view.emb (ix2 p k)) = _
  have e : ((cfg0.win 7).blk t).view.emb (ix2 p k) = ix2 p k := funext fun a => Fin.ext (by
    match a with
    | ⟨0, _⟩ =>
      show win0_7.index t (0 : Fin 2) * 32 + 1 * p.val = p.val
      rw [(params_idx t).2.2.2.2.2.1]; omega
    | ⟨1, _⟩ =>
      show win0_7.index t (1 : Fin 2) * 32 + 1 * k.val = k.val
      rw [(params_idx t).2.2.2.2.2.2.1]; omega)
  rw [e]; exact transposed_apply m c p k

theorem weight1a_read (c : Dev nD) (t : Fin cfg0.N) (k : Fin 32) :
    View.ld (blockAt m c 4 t) rW1a (ix2 (0 : Fin 1) k) = (m ((c : Thread nD τ).loc main_arg4)) (ix2 (0 : Fin 2) k) := by
  show entry m c main_arg4 (((cfg0.win 4).blk t).view.emb (rW1a.idx (ix2 (0 : Fin 1) k))) = _
  rw [entry_main_arg4]
  refine congrArg _ (funext fun a => Fin.ext ?_)
  match a with
  | ⟨0, _⟩ =>
    show win0_4.index t (0 : Fin 2) * 2 + 1 * (0 + 1 * 0) = 0
    rw [(params_idx t).1]
  | ⟨1, _⟩ =>
    show win0_4.index t (1 : Fin 2) * 32 + 1 * (0 + 1 * k.val) = k.val
    rw [(params_idx t).2.1]; omega

theorem weight1b_read (c : Dev nD) (t : Fin cfg0.N) (k : Fin 32) :
    View.ld (blockAt m c 4 t) rW1b (ix2 (0 : Fin 1) k) = (m ((c : Thread nD τ).loc main_arg4)) (ix2 (1 : Fin 2) k) := by
  show entry m c main_arg4 (((cfg0.win 4).blk t).view.emb (rW1b.idx (ix2 (0 : Fin 1) k))) = _
  rw [entry_main_arg4]
  refine congrArg _ (funext fun a => Fin.ext ?_)
  match a with
  | ⟨0, _⟩ =>
    show win0_4.index t (0 : Fin 2) * 2 + 1 * (1 + 1 * 0) = 1
    rw [(params_idx t).1]
  | ⟨1, _⟩ =>
    show win0_4.index t (1 : Fin 2) * 32 + 1 * (0 + 1 * k.val) = k.val
    rw [(params_idx t).2.1]; omega

/-! ## What a point writes back is a block of the whole-array function -/

theorem flushedA_eq (c : Dev nD) (t : Fin cfg0.N) :
    (pdata m 0 c).flushed 10 t = ((cfg0.win 10).blk t).view.read (Elt Ideal) (updatedA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 10).cut (grid0.coords t) ((pdata m 0 c).after 10 t) = _
  rw [after_10]
  unfold left_10
  rw [View.canon_unit_zero hz1]
  simp only [View.ld_unit_zero (S := S16384) hz1, View.ld_unit_zero (S := S32) hz1, View.ld_unit_zero (S := S32x32) hz2]
  funext y
  obtain ⟨j, rfl⟩ : ∃ j : Fin 16384, y = ix1 j := ⟨y 0, eq_ix1 y⟩
  refine (updatedA_apply (blockAt m c 2 t) (blockAt m c 3 t) (blockAt m c 0 t) (View.ld (blockAt m c 4 t) rW1a) (View.ld (blockAt m c 4 t) rW1b)
    (blockAt m c 5 t) (blockAt m c 8 t) (blockAt m c 9 t) (blockAt m c 7 t) (blockAt m c 6 t)
    (fun k p => (weight2T_read m c t p k).trans (weight2_read m c t k p).symm) j).trans ?_
  show _ = updatedA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb (ix1 j))
  rw [outA_index]
  simp only [row0_read, row2_read, row3_read, weight1a_read, weight1b_read, bias1_read, weight2_read, bias2_read, readout_read]
  rfl

theorem flushedB_eq (c : Dev nD) (t : Fin cfg0.N) :
    (pdata m 0 c).flushed 11 t = ((cfg0.win 11).blk t).view.read (Elt Ideal) (updatedB (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 11).cut (grid0.coords t) ((pdata m 0 c).after 11 t) = _
  rw [after_11]
  unfold left_11
  rw [View.canon_unit_zero hz1]
  simp only [View.ld_unit_zero (S := S16384) hz1, View.ld_unit_zero (S := S32) hz1, View.ld_unit_zero (S := S32x32) hz2]
  funext y
  obtain ⟨j, rfl⟩ : ∃ j : Fin 16384, y = ix1 j := ⟨y 0, eq_ix1 y⟩
  refine (updatedB_apply (blockAt m c 2 t) (blockAt m c 3 t) (blockAt m c 1 t) (View.ld (blockAt m c 4 t) rW1a) (View.ld (blockAt m c 4 t) rW1b)
    (blockAt m c 5 t) (blockAt m c 8 t) (blockAt m c 9 t) (blockAt m c 7 t) (blockAt m c 6 t)
    (fun k p => (weight2T_read m c t p k).trans (weight2_read m c t k p).symm) j).trans ?_
  show _ = updatedB (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb (ix1 j))
  rw [outB_index]
  simp only [row1_read, row2_read, row3_read, weight1a_read, weight1b_read, bias1_read, weight2_read, bias2_read, readout_read]
  rfl

/-! ## The blocks tile the rows -/

theorem mem_blockA (t : Fin cfg0.N) (i : S4194304.Idx) :
    i ∈ ((cfg0.win 10).blk t).view.set ↔ ∀ a : Fin 1, win0_10.index t a * S16384.size a ≤ (i a).val ∧ (i a).val < win0_10.index t a * S16384.size a + S16384.size a := by
  show i ∈ ((View.whole main_v4_0).slice (win0_10.rect t)).set ↔ _
  rw [View.set_slice_whole, Rect.mem_set_unit]
  exact Iff.rfl

theorem coveredA (i : S4194304.Idx) : ∃ t : Fin cfg0.N, (cfg0.win 10).flush t = true ∧ i ∈ ((cfg0.win 10).blk t).view.set := by
  have hi : (i 0).val < 4194304 := (i 0).isLt
  have hq : (i 0).val / 16384 < grid0.N := by rw [N_0]; omega
  refine ⟨⟨(i 0).val / 16384, hq⟩, flush0_10 _, ?_⟩
  rw [mem_blockA]
  intro a
  match a with
  | ⟨0, _⟩ =>
    show win0_10.index ⟨(i 0).val / 16384, hq⟩ (0 : Fin 1) * 16384 ≤ (i 0).val ∧ (i 0).val < win0_10.index ⟨(i 0).val / 16384, hq⟩ (0 : Fin 1) * 16384 + 16384
    rw [(rows_idx ⟨(i 0).val / 16384, hq⟩).2.2.2.2.1]
    show (i 0).val / 16384 * 16384 ≤ (i 0).val ∧ (i 0).val < (i 0).val / 16384 * 16384 + 16384
    omega

theorem mem_blockB (t : Fin cfg0.N) (i : S4194304.Idx) :
    i ∈ ((cfg0.win 11).blk t).view.set ↔ ∀ a : Fin 1, win0_11.index t a * S16384.size a ≤ (i a).val ∧ (i a).val < win0_11.index t a * S16384.size a + S16384.size a := by
  show i ∈ ((View.whole main_v4_1).slice (win0_11.rect t)).set ↔ _
  rw [View.set_slice_whole, Rect.mem_set_unit]
  exact Iff.rfl

theorem coveredB (i : S4194304.Idx) : ∃ t : Fin cfg0.N, (cfg0.win 11).flush t = true ∧ i ∈ ((cfg0.win 11).blk t).view.set := by
  have hi : (i 0).val < 4194304 := (i 0).isLt
  have hq : (i 0).val / 16384 < grid0.N := by rw [N_0]; omega
  refine ⟨⟨(i 0).val / 16384, hq⟩, flush0_11 _, ?_⟩
  rw [mem_blockB]
  intro a
  match a with
  | ⟨0, _⟩ =>
    show win0_11.index ⟨(i 0).val / 16384, hq⟩ (0 : Fin 1) * 16384 ≤ (i 0).val ∧ (i 0).val < win0_11.index ⟨(i 0).val / 16384, hq⟩ (0 : Fin 1) * 16384 + 16384
    rw [(rows_idx ⟨(i 0).val / 16384, hq⟩).2.2.2.2.2]
    show (i 0).val / 16384 * 16384 ≤ (i 0).val ∧ (i 0).val < (i 0).val / 16384 * 16384 + 16384
    omega

theorem finalA (c : Dev nD) : (pdata m 0 c).arrAt 10 cfg0.N = updatedA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (pdata m 0 c).arrAt_eq_of_cover 10 _ (fun t _ => flushedA_eq m c t) coveredA
theorem finalB (c : Dev nD) : (pdata m 0 c).arrAt 11 cfg0.N = updatedB (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (pdata m 0 c).arrAt_eq_of_cover 11 _ (fun t _ => flushedB_eq m c t) coveredB

/-! ## The result: four row vectors as the four columns of one array -/

def columns4 (a b c d : S4194304.Idx → EReal) : S4194304x4.Idx → EReal :=
  concatenate S4194304x4 1 [⟨S4194304x1, broadcastInDim S4194304x1 ![0] bcast_S4194304_S4194304x1_0 a⟩, ⟨S4194304x1, broadcastInDim S4194304x1 ![0] bcast_S4194304_S4194304x1_0 b⟩, ⟨S4194304x1, broadcastInDim S4194304x1 ![0] bcast_S4194304_S4194304x1_0 c⟩, ⟨S4194304x1, broadcastInDim S4194304x1 ![0] bcast_S4194304_S4194304x1_0 d⟩]
    concatenates_S4194304x1_S4194304x1_S4194304x1_S4194304x1_S4194304x4_d1

theorem result_eq (c : Dev nD) : Pipeline.afterTail₀ cfgs (pdata m) 0 (entry0 m) [hostOps1] c main_v9
    = columns4 (updatedA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (updatedB (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) := by
  have hA : Pipeline.withArrays (cfgs 0).spec c (entry0 m c) (fun w => (pdata m 0 c).arrAt w (cfgs 0).N) (Proc.devRef .tc main_v4_0) = updatedA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (Pipeline.withArrays_arr spec0 launch0.win.arr_inj c _ _ 10).trans (finalA m c)
  have hB : Pipeline.withArrays (cfgs 0).spec c (entry0 m c) (fun w => (pdata m 0 c).arrAt w (cfgs 0).N) (Proc.devRef .tc main_v4_1) = updatedB (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (Pipeline.withArrays_arr spec0 launch0.win.arr_inj c _ _ 11).trans (finalB m c)
  have h2 : Pipeline.withArrays (cfgs 0).spec c (entry0 m c) (fun w => (pdata m 0 c).arrAt w (cfgs 0).N) (Proc.devRef .tc main_arg2) = (m ((c : Thread nD τ).loc main_arg2)) :=
    (Pipeline.withArrays_arr spec0 launch0.win.arr_inj c _ _ 2).trans (((pdata m 0 c).arrAt_in 2 rfl _).trans ((A_eq m c 2).trans (entry_main_arg2 m c)))
  have h3 : Pipeline.withArrays (cfgs 0).spec c (entry0 m c) (fun w => (pdata m 0 c).arrAt w (cfgs 0).N) (Proc.devRef .tc main_arg3) = (m ((c : Thread nD τ).loc main_arg3)) :=
    (Pipeline.withArrays_arr spec0 launch0.win.arr_inj c _ _ 3).trans (((pdata m 0 c).arrAt_in 3 rfl _).trans ((A_eq m c 3).trans (entry_main_arg3 m c)))
  unfold Pipeline.afterTail₀
  show StableHlo.after hostOps1 _ (Proc.devRef .tc main_v9) = _
  after_results_simp
  dsimp only [Matrix.cons_val]
  repeat (first | rw [unary_result] | (rw [unary_result_ne]; rotate_left; decide))
  rw [hA, hB, h2, h3]
  rfl

/-- Every weakly fair execution of the program terminates without a fault, with the result at the two updated row vectors
    beside the two inputs, and the arguments unchanged. -/
theorem run : θ_run defs (onTc (τ := τ) (main (F := Ideal))) ⟨m, fun _ => 0, ρ⟩ fun r => ∀ c : Dev nD,
      r.2.mem ((c.tc : Thread nD τ).loc main_v9) = columns4 (updatedA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (updatedB (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v9 (Pipeline.mem_restRefs_of main_v9 (by decide) (by decide))).trans (result_eq m c),
      ((h c).1 0).trans (((pdata m 0 c).arrAt_in 0 rfl _).trans ((A_eq m c 0).trans (entry_main_arg0 m c))),
      ((h c).1 1).trans (((pdata m 0 c).arrAt_in 1 rfl _).trans ((A_eq m c 1).trans (entry_main_arg1 m c))),
      ((h c).1 2).trans (((pdata m 0 c).arrAt_in 2 rfl _).trans ((A_eq m c 2).trans (entry_main_arg2 m c))),
      ((h c).1 3).trans (((pdata m 0 c).arrAt_in 3 rfl _).trans ((A_eq m c 3).trans (entry_main_arg3 m c))),
      ((h c).1 4).trans (((pdata m 0 c).arrAt_in 4 rfl _).trans ((A_eq m c 4).trans (entry_main_arg4 m c))),
      ((h c).1 5).trans (((pdata m 0 c).arrAt_in 5 rfl _).trans ((A_eq m c 5).trans (entry_main_arg5 m c))),
      ((h c).2 main_arg6 (Pipeline.mem_restRefs_of main_arg6 (by decide) (by decide))).trans (exit_main_arg6 m (pdata m) c),
      ((h c).1 8).trans (((pdata m 0 c).arrAt_in 8 rfl _).trans ((A_eq m c 8).trans (entry_main_arg7 m c))),
      ((h c).2 main_arg8 (Pipeline.mem_restRefs_of main_arg8 (by decide) (by decide))).trans (exit_main_arg8 m (pdata m) c),
      ((h c).2 main_arg9 (Pipeline.mem_restRefs_of main_arg9 (by decide) (by decide))).trans (exit_main_arg9 m (pdata m) c)⟩) (run_main m ρ)

end Cert.KernelIdeal.Whole

end
-- ==== Proof.RefSide.lean ====
/-
  The reference, read one row at a time at the ideal instance. Row `b` of each of its intermediates is a quantity of
  `Cert.MlpGrad` at the inputs `(y1 b, y2 b)`: the product of the stacked inputs with the first weight plus the bias is the
  first layer's pre-activation, `1 / (1 + e^(−v))` is the logistic function, the derivative of the logistic function is
  `σ · (1 − σ)` times the incoming derivative, and the four products with the weights are sums over the hidden units. They
  differ from the kernel's arrangement only in the order of the factors; the product of ones with the read-out weight is
  the read-out weight.
-/
import proofs.«157394_j84009560310416_1_alg».proof.Proof.Gen.ReferenceIdeal.Read
import proofs.«157394_j84009560310416_1_alg».proof.Proof.Whole
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.MlpGrad
open Idealize.ShloMosaic Idealize.ShloMosaic.ValueIdx

variable (x0 x1 x2 x3 : (⟨S4194304, .f32⟩ : BufTy).Contents (Elt Ideal)) (x4 : (⟨S2x32, .f32⟩ : BufTy).Contents (Elt Ideal))
  (x5 : (⟨S32, .f32⟩ : BufTy).Contents (Elt Ideal)) (x6 : (⟨S32x32, .f32⟩ : BufTy).Contents (Elt Ideal))
  (x7 : (⟨S32, .f32⟩ : BufTy).Contents (Elt Ideal)) (x8 : (⟨S32x1, .f32⟩ : BufTy).Contents (Elt Ideal))

/-- the network's parameters, read off the parameter arrays -/
abbrev WA : Fin 32 → EReal := fun k => x4 (ix2 (0 : Fin 2) k)
abbrev WB : Fin 32 → EReal := fun k => x4 (ix2 (1 : Fin 2) k)
abbrev B1 : Fin 32 → EReal := fun k => x5 (ix1 k)
abbrev W2 : Fin 32 → Fin 32 → EReal := fun k p => x6 (ix2 k p)
abbrev B2 : Fin 32 → EReal := fun p => x7 (ix1 p)
abbrev W3 : Fin 32 → EReal := fun p => x8 (ix2 p (0 : Fin 1))

/-! ## The two inputs stacked as columns -/

theorem stacked_first (b : Fin 4194304) (i : S4194304x2.Idx) (h0 : (i 0).val = b.val) (h1 : (i 1).val = 0) :
    val_main_v2 (F := Ideal) x2 x3 i = x2 (ix1 b) := by
  unfold val_main_v2
  refine (concatenate_pair_apply_left (t := S4194304x2) (s₁ := S4194304x1) (s₂ := S4194304x1) (1 : Fin 2) _ _ concatenates_S4194304x1_S4194304x1_S4194304x2_d1 i rfl (ix2 b (0 : Fin 1)) (fun a => ?_)).trans ?_
  · match a with
    | ⟨0, _⟩ => exact h0.symm
    | ⟨1, _⟩ => exact h1.symm
  · exact (val_main_v0_apply x2 _).trans (congrArg x2 (funext fun a => Fin.ext (by match a with | ⟨0, _⟩ => rfl)))

theorem stacked_second (b : Fin 4194304) (i : S4194304x2.Idx) (h0 : (i 0).val = b.val) (h1 : (i 1).val = 1) :
    val_main_v2 (F := Ideal) x2 x3 i = x3 (ix1 b) := by
  unfold val_main_v2
  refine (concatenate_pair_apply_right (t := S4194304x2) (s₁ := S4194304x1) (s₂ := S4194304x1) (1 : Fin 2) _ _ concatenates_S4194304x1_S4194304x1_S4194304x2_d1 i rfl rfl (ix2 b (0 : Fin 1)) (fun a ha => ?_) ?_).trans ?_
  · match a, ha with
    | ⟨0, _⟩, _ => exact h0.symm
    | ⟨1, _⟩, ha => exact absurd rfl ha
  · show 0 + 1 = (i 1).val
    omega
  · exact (val_main_v1_apply x3 _).trans (congrArg x3 (funext fun a => Fin.ext (by match a with | ⟨0, _⟩ => rfl)))

/-! ## The forward pass, row `b` -/

theorem pre1_apply (b : Fin 4194304) (k : Fin 32) :
    val_main_v6 (F := Ideal) x2 x3 x4 x5 (ix2 b k) = WA x4 k * x2 (ix1 b) + WB x4 k * x3 (ix1 b) + B1 x5 k := by
  have : ridx_main_v3 (ix2 b k) 0 = ix2 (0 : Fin 2) k := funext fun a => Fin.ext (by
    match a with
    | ⟨0, _⟩ => rfl
    | ⟨1, _⟩ => rfl)
  have e1 : ridx_main_v3 (ix2 b k) 1 = ix2 (1 : Fin 2) k := funext fun a => Fin.ext (by
    match a with
    | ⟨0, _⟩ => rfl
    | ⟨1, _⟩ => rfl)
  have e5 : idx_main_v4 (idx_main_v5 (ix2 b k)) = ix1 k := funext fun a => Fin.ext (by
    match a with
    | ⟨0, _⟩ => rfl)
  rw [val_main_v6_apply, val_main_v3_apply, val_main_v5_apply, val_main_v4_apply, Fin.sum_univ_two,
    stacked_first x2 x3 b _ rfl rfl, stacked_second x2 x3 b _ rfl rfl, this, e1, e5]
  show x2 (ix1 b) * x4 (ix2 (0 : Fin 2) k) + x3 (ix1 b) * x4 (ix2 (1 : Fin 2) k) + x5 (ix1 k) = _
  rw [mul_comm (x2 (ix1 b)), mul_comm (x3 (ix1 b))]

theorem act1_apply (b : Fin 4194304) (k : Fin 32) :
    val_main_v12 (F := Ideal) x2 x3 x4 x5 (ix2 b k) = act1 (WA x4) (WB x4) (B1 x5) (x2 (ix1 b)) (x3 (ix1 b)) k := by
  simp only [val_main_v12_apply, val_main_v11_apply, val_main_cst_0_apply, val_main_v10_apply, val_main_v9_apply, val_main_cst_apply,
    val_main_v8_apply, val_main_v7_apply, pre1_apply, Ideal.ofBits_def, one_word]
  rfl

theorem dact1_apply (b : Fin 4194304) (k : Fin 32) :
    val_main_v15 (F := Ideal) x2 x3 x4 x5 (ix2 b k) = act1 (WA x4) (WB x4) (B1 x5) (x2 (ix1 b)) (x3 (ix1 b)) k * (1 - act1 (WA x4) (WB x4) (B1 x5) (x2 (ix1 b)) (x3 (ix1 b)) k) := by
  simp only [val_main_v15_apply, val_main_v14_apply, val_main_v13_apply, val_main_cst_1_apply, act1_apply, Ideal.ofBits_def, one_word]
  rfl

theorem act2_apply (b : Fin 4194304) (p : Fin 32) :
    val_main_v25 (F := Ideal) x2 x3 x4 x5 x6 x7 (ix2 b p) = act2 (WA x4) (WB x4) (B1 x5) (W2 x6) (B2 x7) (x2 (ix1 b)) (x3 (ix1 b)) p := by
  have el : ∀ k : Fin 32, lidx_main_v16 (ix2 b p) k = ix2 b k := fun k => funext fun a => Fin.ext (by
    match a with
    | ⟨0, _⟩ => rfl
    | ⟨1, _⟩ => rfl)
  have er : ∀ k : Fin 32, ridx_main_v16 (ix2 b p) k = ix2 k p := fun k => funext fun a => Fin.ext (by
    match a with
    | ⟨0, _⟩ => rfl
    | ⟨1, _⟩ => rfl)
  have e7 : idx_main_v17 (idx_main_v18 (ix2 b p)) = ix1 p := funext fun a => Fin.ext (by
    match a with
    | ⟨0, _⟩ => rfl)
  simp only [val_main_v25_apply, val_main_v24_apply, val_main_cst_3_apply, val_main_v23_apply, val_main_v22_apply, val_main_cst_2_apply,
    val_main_v21_apply, val_main_v20_apply, val_main_v19_apply, val_main_v16_apply, val_main_v18_apply, val_main_v17_apply,
    el, er, e7, act1_apply, Ideal.ofBits_def, one_word]
  show Ideal.div 1 (1 + Ideal.exp (-((∑ k : Fin 32, act1 (WA x4) (WB x4) (B1 x5) (x2 (ix1 b)) (x3 (ix1 b)) k * x6 (ix2 k p)) + x7 (ix1 p)))) = _
  rw [Finset.sum_congr rfl fun k _ => mul_comm (act1 (WA x4) (WB x4) (B1 x5) (x2 (ix1 b)) (x3 (ix1 b)) k) (x6 (ix2 k p))]
  rfl

theorem dact2_apply (b : Fin 4194304) (p : Fin 32) :
    val_main_v28 (F := Ideal) x2 x3 x4 x5 x6 x7 (ix2 b p) = act2 (WA x4) (WB x4) (B1 x5) (W2 x6) (B2 x7) (x2 (ix1 b)) (x3 (ix1 b)) p * (1 - act2 (WA x4) (WB x4) (B1 x5) (W2 x6) (B2 x7) (x2 (ix1 b)) (x3 (ix1 b)) p) := by
  simp only [val_main_v28_apply, val_main_v27_apply, val_main_v26_apply, val_main_cst_4_apply, act2_apply, Ideal.ofBits_def, one_word]
  rfl

/-! ## The backward pass, row `b` -/

theorem ones_apply (b : Fin 4194304) (p : Fin 32) : val_main_v35 (F := Ideal) x8 (ix2 b p) = W3 x8 p := by
  have er : ridx_main_v35 (ix2 b p) 0 = ix2 p (0 : Fin 1) := funext fun a => Fin.ext (by
    match a with
    | ⟨0, _⟩ => rfl
    | ⟨1, _⟩ => rfl)
  rw [val_main_v35_apply, Fin.sum_univ_one, val_main_v34_apply, val_main_cst_6_apply, er, Ideal.ofBits_def, one_word, one_mul]

theorem back2_apply (b : Fin 4194304) (p : Fin 32) :
    val_main_v36 (F := Ideal) x2 x3 x4 x5 x6 x7 x8 (ix2 b p) = back2 (WA x4) (WB x4) (B1 x5) (W2 x6) (B2 x7) (W3 x8) (x2 (ix1 b)) (x3 (ix1 b)) p := by
  rw [val_main_v36_apply, ones_apply, dact2_apply]
  exact mul_comm _ _

theorem back1_sum_apply (b : Fin 4194304) (k : Fin 32) :
    val_main_v37 (F := Ideal) x2 x3 x4 x5 x6 x7 x8 (ix2 b k) = ∑ p : Fin 32, W2 x6 k p * back2 (WA x4) (WB x4) (B1 x5) (W2 x6) (B2 x7) (W3 x8) (x2 (ix1 b)) (x3 (ix1 b)) p := by
  have el : ∀ p : Fin 32, lidx_main_v37 (ix2 b k) p = ix2 b p := fun p => funext fun a => Fin.ext (by
    match a with
    | ⟨0, _⟩ => rfl
    | ⟨1, _⟩ => rfl)
  have er : ∀ p : Fin 32, ridx_main_v37 (ix2 b k) p = ix2 k p := fun p => funext fun a => Fin.ext (by
    match a with
    | ⟨0, _⟩ => rfl
    | ⟨1, _⟩ => rfl)
  rw [val_main_v37_apply]
  refine Finset.sum_congr rfl fun p _ => ?_
  rw [el, er, back2_apply]
  exact mul_comm _ _

theorem back1_apply (b : Fin 4194304) (k : Fin 32) :
    val_main_v38 (F := Ideal) x2 x3 x4 x5 x6 x7 x8 (ix2 b k) = back1 (WA x4) (WB x4) (B1 x5) (W2 x6) (B2 x7) (W3 x8) (x2 (ix1 b)) (x3 (ix1 b)) k := by
  rw [val_main_v38_apply, back1_sum_apply, dact1_apply]
  exact mul_comm _ _

theorem grads_apply (b : Fin 4194304) (c : Fin 2) :
    val_main_v39 (F := Ideal) x2 x3 x4 x5 x6 x7 x8 (ix2 b c) = ∑ k : Fin 32, back1 (WA x4) (WB x4) (B1 x5) (W2 x6) (B2 x7) (W3 x8) (x2 (ix1 b)) (x3 (ix1 b)) k * x4 (ix2 c k) := by
  have el : ∀ k : Fin 32, lidx_main_v39 (ix2 b c) k = ix2 b k := fun k => funext fun a => Fin.ext (by
    match a with
    | ⟨0, _⟩ => rfl
    | ⟨1, _⟩ => rfl)
  have er : ∀ k : Fin 32, ridx_main_v39 (ix2 b c) k = ix2 c k := fun k => funext fun a => Fin.ext (by
    match a with
    | ⟨0, _⟩ => rfl
    | ⟨1, _⟩ => rfl)
  rw [val_main_v39_apply]
  refine Finset.sum_congr rfl fun k _ => ?_
  rw [el, er, back1_apply]

/-! ## The two updated row vectors -/

theorem first_eq : val_main_v42 (F := Ideal) x0 x2 x3 x4 x5 x6 x7 x8 = updatedA x0 x2 x3 x4 x5 x6 x7 x8 := by
  funext i
  obtain ⟨b, rfl⟩ : ∃ b : Fin 4194304, i = ix1 b := ⟨i 0, eq_ix1 i⟩
  have e : idx_main_v40 (idx_main_v41 (ix1 b)) = ix2 b (0 : Fin 2) := funext fun a => Fin.ext (by
    match a with
    | ⟨0, _⟩ => exact Nat.div_one _
    | ⟨1, _⟩ => rfl)
  rw [val_main_v42_apply, val_main_v41_apply, val_main_v40_apply, e, grads_apply]
  rfl

theorem second_eq : val_main_v45 (F := Ideal) x1 x2 x3 x4 x5 x6 x7 x8 = updatedB x1 x2 x3 x4 x5 x6 x7 x8 := by
  funext i
  obtain ⟨b, rfl⟩ : ∃ b : Fin 4194304, i = ix1 b := ⟨i 0, eq_ix1 i⟩
  have e : idx_main_v43 (idx_main_v44 (ix1 b)) = ix2 b (1 : Fin 2) := funext fun a => Fin.ext (by
    match a with
    | ⟨0, _⟩ => exact Nat.div_one _
    | ⟨1, _⟩ => rfl)
  rw [val_main_v45_apply, val_main_v44_apply, val_main_v43_apply, e, grads_apply]
  rfl

end Cert.ReferenceIdeal.RefValue

end
-- ==== Proof.lean ====
/-
  The certificate's five claims.

  The program adds, to each of two row vectors, the derivative of a small network's read-out with respect to one of its two
  inputs: two hidden layers of 32 logistic units, the derivative taken by hand through σ' = σ·(1 − σ), one grid point per
  block of 16384 rows; the reference lets the derivative be taken automatically and writes the logistic function as
  1/(1 + e^(−v)). On the extended reals the two are the same function of the arguments (`Cert.MlpGrad.updatedA`, `updatedB`):
  row by row both are the chain rule's sums over the hidden units, and they differ only in the order of the factors of the
  products. No distributive law is used, so the finiteness of the inputs is not needed.

  Frames: each program runs to the end without a fault and leaves its argument arrays as they were — for the two kernel
  programs because an input window's array is never written and the host lines around the grid write only their own results;
  for the reference by its run. The idealization rewrote no operation, so there is nothing to preserve.
-/
import proofs.«157394_j84009560310416_1_alg».proof.Defs
import proofs.«157394_j84009560310416_1_alg».proof.Proof.Gen.Kernel
import proofs.«157394_j84009560310416_1_alg».proof.Proof.Gen.KernelIdeal
import proofs.«157394_j84009560310416_1_alg».proof.Proof.Gen.ReferenceIdeal
import proofs.«157394_j84009560310416_1_alg».proof.Proof.Gen.Pre_finite_inputs
import proofs.«157394_j84009560310416_1_alg».proof.Proof.KernelAround
import proofs.«157394_j84009560310416_1_alg».proof.Proof.KernelIdealAround
import proofs.«157394_j84009560310416_1_alg».proof.Proof.KernelIdealValue
import proofs.«157394_j84009560310416_1_alg».proof.Proof.RefSide

noncomputable section

namespace Cert.Proof

open Idealize.ShloMosaic Idealize.SL.Sem Cert.MlpGrad

theorem frame_kernel : Cert.frame_Kernel := fun m ρ _ => Cert.Kernel.Around.frame m ρ
theorem frame_kernelIdeal : Cert.frame_KernelIdeal := fun m ρ _ => Cert.KernelIdeal.Around.frame m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two updated row vectors beside the two inputs: the kernel program by its run read block by
    block, the reference by its run read row by row; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v50_eq]
  simp only [h0, h1, h2, h3, h4, h5, h6, h7, h8, h9]
  unfold Cert.ReferenceIdeal.Read.val_main_v50 Cert.ReferenceIdeal.Read.val_main_v46 Cert.ReferenceIdeal.Read.val_main_v47
    Cert.ReferenceIdeal.Read.val_main_v48 Cert.ReferenceIdeal.Read.val_main_v49
  rw [Cert.ReferenceIdeal.RefValue.first_eq, Cert.ReferenceIdeal.RefValue.second_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
